-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S32768x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256x16x64 : Shape := ⟨3, ![256, 16, 64]⟩
abbrev S256x1x64 : Shape := ⟨3, ![256, 1, 64]⟩
abbrev S256x16 : Shape := ⟨2, ![256, 16]⟩
abbrev S256x16x1 : Shape := ⟨3, ![256, 16, 1]⟩
abbrev S256x16x16 : Shape := ⟨3, ![256, 16, 16]⟩

abbrev nBuf : Space → Nat
  | .hbm => 22
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S256x16x64 : S256x1024.ShapeCasts S256x16x64
  slices_S256x16x64_o0_0_0_S256x1x64 : S256x16x64.Slices ![0, 0, 0] S256x1x64
  broadcasts_S256x1x64_S256x16x64 : S256x1x64.Broadcasts S256x16x64
  reduces_S256x16x64_S256x16 : S256x16x64.Reduces [2] S256x16
  shapeCasts_S256x16_S256x16x1 : S256x16.ShapeCasts S256x16x1
  slices_S256x16x64_o0_1_0_S256x1x64 : S256x16x64.Slices ![0, 1, 0] S256x1x64
  slices_S256x16x64_o0_2_0_S256x1x64 : S256x16x64.Slices ![0, 2, 0] S256x1x64
  slices_S256x16x64_o0_3_0_S256x1x64 : S256x16x64.Slices ![0, 3, 0] S256x1x64
  slices_S256x16x64_o0_4_0_S256x1x64 : S256x16x64.Slices ![0, 4, 0] S256x1x64
  slices_S256x16x64_o0_5_0_S256x1x64 : S256x16x64.Slices ![0, 5, 0] S256x1x64
  slices_S256x16x64_o0_6_0_S256x1x64 : S256x16x64.Slices ![0, 6, 0] S256x1x64
  slices_S256x16x64_o0_7_0_S256x1x64 : S256x16x64.Slices ![0, 7, 0] S256x1x64
  slices_S256x16x64_o0_8_0_S256x1x64 : S256x16x64.Slices ![0, 8, 0] S256x1x64
  slices_S256x16x64_o0_9_0_S256x1x64 : S256x16x64.Slices ![0, 9, 0] S256x1x64
  slices_S256x16x64_o0_10_0_S256x1x64 : S256x16x64.Slices ![0, 10, 0] S256x1x64
  slices_S256x16x64_o0_11_0_S256x1x64 : S256x16x64.Slices ![0, 11, 0] S256x1x64
  slices_S256x16x64_o0_12_0_S256x1x64 : S256x16x64.Slices ![0, 12, 0] S256x1x64
  slices_S256x16x64_o0_13_0_S256x1x64 : S256x16x64.Slices ![0, 13, 0] S256x1x64
  slices_S256x16x64_o0_14_0_S256x1x64 : S256x16x64.Slices ![0, 14, 0] S256x1x64
  slices_S256x16x64_o0_15_0_S256x1x64 : S256x16x64.Slices ![0, 15, 0] S256x1x64
  concatenates_S256x16x1_S256x16x1_S256x16x1_S256x16x1_S256x16x1_S256x16x1_S256x16x1_S256x16x1_S256x16x1_S256x16x1_S256x16x1_S256x16x1_S256x16x1_S256x16x1_S256x16x1_S256x16x1_S256x16x16_d2 : Shape.Concatenates [S256x16x1, S256x16x1, S256x16x1, S256x16x1, S256x16x1, S256x16x1, S256x16x1, S256x16x1, S256x16x1, S256x16x1, S256x16x1, S256x16x1, S256x16x1, S256x16x1, S256x16x1, S256x16x1] S256x16x16 2
  reduces_S256x16x16_S256x16 : S256x16x16.Reduces [2] S256x16
  broadcasts_S256x16x1_S256x16x16 : S256x16x1.Broadcasts S256x16x16
  slices_S256x16x16_o0_0_0_S256x16x1 : S256x16x16.Slices ![0, 0, 0] S256x16x1
  broadcasts_S256x16x1_S256x16x64 : S256x16x1.Broadcasts S256x16x64
  slices_S256x16x16_o0_0_1_S256x16x1 : S256x16x16.Slices ![0, 0, 1] S256x16x1
  slices_S256x16x16_o0_0_2_S256x16x1 : S256x16x16.Slices ![0, 0, 2] S256x16x1
  slices_S256x16x16_o0_0_3_S256x16x1 : S256x16x16.Slices ![0, 0, 3] S256x16x1
  slices_S256x16x16_o0_0_4_S256x16x1 : S256x16x16.Slices ![0, 0, 4] S256x16x1
  slices_S256x16x16_o0_0_5_S256x16x1 : S256x16x16.Slices ![0, 0, 5] S256x16x1
  slices_S256x16x16_o0_0_6_S256x16x1 : S256x16x16.Slices ![0, 0, 6] S256x16x1
  slices_S256x16x16_o0_0_7_S256x16x1 : S256x16x16.Slices ![0, 0, 7] S256x16x1
  slices_S256x16x16_o0_0_8_S256x16x1 : S256x16x16.Slices ![0, 0, 8] S256x16x1
  slices_S256x16x16_o0_0_9_S256x16x1 : S256x16x16.Slices ![0, 0, 9] S256x16x1
  slices_S256x16x16_o0_0_10_S256x16x1 : S256x16x16.Slices ![0, 0, 10] S256x16x1
  slices_S256x16x16_o0_0_11_S256x16x1 : S256x16x16.Slices ![0, 0, 11] S256x16x1
  slices_S256x16x16_o0_0_12_S256x16x1 : S256x16x16.Slices ![0, 0, 12] S256x16x1
  slices_S256x16x16_o0_0_13_S256x16x1 : S256x16x16.Slices ![0, 0, 13] S256x16x1
  slices_S256x16x16_o0_0_14_S256x16x1 : S256x16x16.Slices ![0, 0, 14] S256x16x1
  slices_S256x16x16_o0_0_15_S256x16x1 : S256x16x16.Slices ![0, 0, 15] S256x16x1
  shapeCasts_S256x16x64_S256x1024 : S256x16x64.ShapeCasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S32768x1024.size a
  hwx0_9 : ∀ i : grid0.Coords, EltTy.bits .f32 = 32 ∨ (Rect.block (s := S32768x1024) S256x1024.size (cc0_transform_9 i) (hinb0_9 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S32768x16x64 : Shape := ⟨3, ![32768, 16, 64]⟩
abbrev S32768x16x16 : Shape := ⟨3, ![32768, 16, 16]⟩
abbrev S_ : Shape := ⟨0, ![]⟩
abbrev S32768x16 : Shape := ⟨2, ![32768, 16]⟩
abbrev S32768x16x1 : Shape := ⟨3, ![32768, 16, 1]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S32768x1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x16x64, .f32⟩
  | .hbm, ⟨15, _⟩ => ⟨S1024x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x16x64, .f32⟩
  | .hbm, ⟨21, _⟩ => ⟨S1024x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x16x64, .f32⟩
  | .hbm, ⟨27, _⟩ => ⟨S32768x16x16, .f32⟩
  | .hbm, ⟨28, _⟩ => ⟨S_, .f32⟩
  | .hbm, ⟨29, _⟩ => ⟨S32768x16x16, .f32⟩
  | .hbm, ⟨30, _⟩ => ⟨S32768x16x16, .f32⟩
  | .hbm, ⟨31, _⟩ => ⟨S_, .f32⟩
  | .hbm, ⟨32, _⟩ => ⟨S32768x16, .f32⟩
  | .hbm, ⟨33, _⟩ => ⟨S_, .f32⟩
  | .hbm, ⟨34, _⟩ => ⟨S32768x16, .f32⟩
  | .hbm, ⟨35, _⟩ => ⟨S32768x16, .f32⟩
  | .hbm, ⟨36, _⟩ => ⟨S32768x16x1, .f32⟩
  | .hbm, ⟨37, _⟩ => ⟨S32768x16x16, .f32⟩
  | .hbm, ⟨38, _⟩ => ⟨S32768x16x16, .f32⟩
  | .hbm, ⟨39, _⟩ => ⟨S32768x16x16, .f32⟩
  | .hbm, ⟨40, _⟩ => ⟨S_, .f32⟩
  | .hbm, ⟨41, _⟩ => ⟨S32768x16, .f32⟩
  | .hbm, ⟨42, _⟩ => ⟨S32768x16x1, .f32⟩
  | .hbm, ⟨43, _⟩ => ⟨S32768x16x16, .f32⟩
  | .hbm, ⟨44, _⟩ => ⟨S32768x16x16, .f32⟩
  | .hbm, ⟨45, _⟩ => ⟨S32768x16x64, .f32⟩
  | .hbm, ⟨46, _⟩ => ⟨S32768x1024, .f32⟩
  | .hbm, ⟨47, _⟩ => ⟨S1024x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  shapeCasts_S32768x1024_S32768x16x64 : S32768x1024.ShapeCasts S32768x16x64
  bcast_S_S32768x16x16 : S_.BroadcastsInDim S32768x16x16 (![] : Fin 0 → Fin S32768x16x16.rank)
  reducesTo_S32768x16x16_S32768x16_d2 : S32768x16x16.ReducesTo [2] S32768x16
  h_S_ : 0 < S_.numel
  bcast_S_S32768x16 : S_.BroadcastsInDim S32768x16 (![] : Fin 0 → Fin S32768x16.rank)
  bcast_S32768x16_S32768x16x1_0_1 : S32768x16.BroadcastsInDim S32768x16x1 (![0, 1] : Fin 2 → Fin S32768x16x1.rank)
  bcast_S32768x16x1_S32768x16x16_0_1_2 : S32768x16x1.BroadcastsInDim S32768x16x16 (![0, 1, 2] : Fin 3 → Fin S32768x16x16.rank)
  shapeCasts_S32768x16x64_S32768x1024 : S32768x16x64.ShapeCasts S32768x1024
  dot_S32768x1024_S1024x1024_S32768x1024_1_0_0_1_n_n_wf : DotDims.WF S32768x1024 S1024x1024 S32768x1024 [1] [0] [0] [1] [] []
  dot_S32768x16x64_S32768x16x64_S32768x16x16_2_2_1_1_0_0_wf : DotDims.WF S32768x16x64 S32768x16x64 S32768x16x16 [2] [2] [1] [1] [0] [0]
  dot_S32768x16x16_S32768x16x64_S32768x16x64_2_1_1_2_0_0_wf : DotDims.WF S32768x16x16 S32768x16x64 S32768x16x64 [2] [1] [1] [2] [0] [0]

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x16x64_S32768x16x64_S32768x16x16_2_2_1_1_0_0 : DotDims S32768x16x64 S32768x16x64 S32768x16x16 where
  lhsContracting := [2]
  rhsContracting := [2]
  lhsNonContracting := [1]
  rhsNonContracting := [1]
  lhsBatch := [0]
  rhsBatch := [0]
  wf := dot_S32768x16x64_S32768x16x64_S32768x16x16_2_2_1_1_0_0_wf
def dot_S32768x16x16_S32768x16x64_S32768x16x64_2_1_1_2_0_0 : DotDims S32768x16x16 S32768x16x64 S32768x16x64 where
  lhsContracting := [2]
  rhsContracting := [1]
  lhsNonContracting := [1]
  rhsNonContracting := [2]
  lhsBatch := [0]
  rhsBatch := [0]
  wf := dot_S32768x16x16_S32768x16x64_S32768x16x64_2_1_1_2_0_0_wf

class Facts : Prop extends Facts₀ where

variable [Facts]
-- ==== Proof.Spec.lean ====
/-
  One token row of cross-head attention, as plain functions on the extended reals.

  A row `x : Fin 1024 → EReal` of the token array is projected three times, `q = x Wqᵀ + bq`, `k = x Wkᵀ + bk`,
  `v = x Wvᵀ + bv` (a weight matrix is read `W e k`: output channel `e`, input channel `k`). The 1024 channels are 16 heads of
  64 lanes, channel `64 h + d` being lane `d` of head `h`. Head `h` scores head `j` by `(∑ d, q[h,d] · k[j,d]) / 8`; the
  scores of a head are turned into weights by the softmax over `j` (subtract the row maximum, exponentiate, divide by the
  sum); head `h`'s new lanes are `∑ j, weight[h,j] · v[j,d]`; the result row is that, projected by `Wo` and `bo`.
  Nothing here mentions a program: both programs are shown to compute `rowOut` of their arguments' rows, token by token
  (`wholeOut`).
-/
import Idealize.ShloMosaic.PureOps.Ideal
import Idealize.ShloMosaic.PureOps.Ideal.Laws
import Idealize.ShloMosaic.Lib.ValueIdx

noncomputable section

open scoped BigOperators

namespace Cert.CrossHead

open Idealize.ShloMosaic

/-- The word of `-∞`, from which both programs start a row maximum. -/
abbrev negInf : EReal := Ideal.ofBits .f32 0xFF800000#32
/-- The word of `1/8 = 64^(-1/2)`, the score scale (the same word in both programs, never evaluated). -/
abbrev scale : EReal := Ideal.ofBits .f32 0x3E000000#32

/-- Channel `64 h + d`: lane `d` of head `h`. -/
def chan (h : Fin 16) (d : Fin 64) : Fin 1024 := ⟨h.val * 64 + d.val, by have := h.isLt; have := d.isLt; omega⟩
/-- The head of a channel. -/
def headOf (e : Fin 1024) : Fin 16 := ⟨e.val / 64, by have := e.isLt; omega⟩
/-- The lane of a channel. -/
def laneOf (e : Fin 1024) : Fin 64 := ⟨e.val % 64, Nat.mod_lt _ (by decide)⟩

theorem chan_val (h : Fin 16) (d : Fin 64) : (chan h d).val = h.val * 64 + d.val := rfl
theorem headOf_val (e : Fin 1024) : (headOf e).val = e.val / 64 := rfl
theorem laneOf_val (e : Fin 1024) : (laneOf e).val = e.val % 64 := rfl

theorem chan_head_lane (e : Fin 1024) : chan (headOf e) (laneOf e) = e :=
  Fin.ext (by rw [chan_val, headOf_val, laneOf_val]; omega)
theorem headOf_chan (h : Fin 16) (d : Fin 64) : headOf (chan h d) = h :=
  Fin.ext (by rw [headOf_val, chan_val]; have := d.isLt; omega)
theorem laneOf_chan (h : Fin 16) (d : Fin 64) : laneOf (chan h d) = d :=
  Fin.ext (by rw [laneOf_val, chan_val]; have := d.isLt; omega)

/-- An affine projection of a row: `(x Wᵀ + b)[e] = ∑ k, x[k] · W[e,k] + b[e]`. -/
def proj (x : Fin 1024 → EReal) (W : Fin 1024 → Fin 1024 → EReal) (b : Fin 1024 → EReal) : Fin 1024 → EReal :=
  fun e => (∑ k : Fin 1024, x k * W e k) + b e

/-- The scaled score of head `h` against head `j`. -/
def score (q k : Fin 1024 → EReal) : Fin 16 → Fin 16 → EReal :=
  fun h j => (∑ d : Fin 64, q (chan h d) * k (chan j d)) * scale

/-- A row's maximum as both programs take it: the fold of `max` from `-∞`, once more against `-∞`. -/
def rowMax (s : Fin 16 → EReal) : EReal := max negInf ((Finset.univ : Finset (Fin 16)).fold max negInf s)

/-- The exponentials of a head's scores less their maximum. -/
def expo (s : Fin 16 → Fin 16 → EReal) : Fin 16 → Fin 16 → EReal :=
  fun h j => Ideal.exp (s h j - rowMax (s h))

/-- The softmax weights over the scored heads. -/
def weights (s : Fin 16 → Fin 16 → EReal) : Fin 16 → Fin 16 → EReal :=
  fun h j => Ideal.div (expo s h j) (∑ j' : Fin 16, expo s h j')

/-- The weighted mix of the value heads, channel by channel. -/
def mix (a : Fin 16 → Fin 16 → EReal) (v : Fin 1024 → EReal) : Fin 1024 → EReal :=
  fun e => ∑ j : Fin 16, a (headOf e) j * v (chan j (laneOf e))

/-- The result row. -/
def rowOut (x : Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (Wo : Fin 1024 → Fin 1024 → EReal) (bo : Fin 1024 → EReal) : Fin 1024 → EReal :=
  proj (mix (weights (score (proj x Wq bq) (proj x Wk bk))) (proj x Wv bv)) Wo bo

/-- A sum over sixteen heads, written out from zero in the order `0, 1, …, 15`: the order in which a running total adds
    one head at a time. Addition of extended reals is associative and commutative, so this is only a rewriting. -/
theorem sum_sixteen (f : Fin 16 → EReal) :
    ∑ j : Fin 16, f j = 0 + f 0 + f 1 + f 2 + f 3 + f 4 + f 5 + f 6 + f 7 + f 8 + f 9 + f 10 + f 11 + f 12 + f 13 + f 14 + f 15 := by
  simp only [Fin.sum_univ_castSucc, Fin.sum_univ_zero]
  rfl

/-! ## The whole result array -/

/-- The result array as ONE function of the nine argument arrays: at token `n`, channel `e`, the result row of row `n`
    of the token array, the weight matrices read `(output channel, input channel)` as given. -/
def wholeOut (X : (⟨2, ![32768, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) :
    (⟨2, ![32768, 1024]⟩ : Shape).Idx → EReal := fun i =>
  rowOut (fun k => X (ValueIdx.ix2 (⟨(i 0).val, ValueIdx.idx2_lt0 i⟩ : Fin 32768) k))
    (fun e k => Wq (ValueIdx.ix2 e k)) (fun e => bq (ValueIdx.ix1 e)) (fun e k => Wk (ValueIdx.ix2 e k)) (fun e => bk (ValueIdx.ix1 e))
    (fun e k => Wv (ValueIdx.ix2 e k)) (fun e => bv (ValueIdx.ix1 e)) (fun e k => Wo (ValueIdx.ix2 e k)) (fun e => bo (ValueIdx.ix1 e))
    (⟨(i 1).val, ValueIdx.idx2_lt1 i⟩ : Fin 1024)

end Cert.CrossHead

end
-- ==== Proof.Block.Linear.lean ====
/-
  The linear pieces of one block of 256 token rows, read at an index over the extended reals.

  A matrix product into a zero accumulator is the plain sum over the contracted channel; the bias, held as one row, is
  added to every row of the block; and viewing a row's 1024 channels as 16 heads of 64 lanes moves nothing: channel
  `64 h + d` is lane `d` of head `h`. Together: each of the three projections of the block, at row `r`, head `h`, lane `d`,
  is the affine projection `proj` of row `r` at channel `64 h + d`, the weight block being read transposed (it was
  transposed before the launch).
-/
import proofs.«133220_j58720792871836_2_alg».proof.Proof.Gen.KernelIdeal.Skeleton
import proofs.«133220_j58720792871836_2_alg».proof.Proof.Spec
import Idealize.ShloMosaic.Lib.ValueIdx
import Idealize.ShloMosaic.Lib.Pipeline.Value
import Idealize.ShloMosaic.PureOps.Ideal.Laws

noncomputable section

open scoped BigOperators

namespace Cert.CrossHead.Block

open Idealize.ShloMosaic Idealize.ShloMosaic.ValueIdx Cert.KernelIdeal Cert.CrossHead

/-- The block's matrix product: rows by the contracted channel, times the contracted channel by columns. -/
abbrev rowsDot : DotDims S256x1024 S1024x1024 S256x1024 := dot_S256x1024_S1024x1024_S256x1024_1_0_0_1_n_n

theorem rowsDot_lhs0 (i : S256x1024.Idx) (q : rowsDot.contr.Idx) : (rowsDot.lhsIdx i q 0).val = (i 0).val := by
  unfold DotDims.lhsIdx
  rw [dif_neg (show ¬(0 : Fin S256x1024.rank) ∈ rowsDot.lhsBatch by decide), dif_pos (show (0 : Fin S256x1024.rank) ∈ rowsDot.lhsNonContracting by decide)]
  rfl
theorem rowsDot_lhs1 (i : S256x1024.Idx) (q : rowsDot.contr.Idx) : (rowsDot.lhsIdx i q 1).val = (q ⟨0, by decide⟩).val :=
  rowsDot.lhsIdx_val_of_single rfl i q
theorem rowsDot_rhs0 (i : S256x1024.Idx) (q : rowsDot.contr.Idx) : (rowsDot.rhsIdx i q 0).val = (q ⟨0, by decide⟩).val :=
  rowsDot.rhsIdx_val_of_single rfl i q
theorem rowsDot_rhs1 (i : S256x1024.Idx) (q : rowsDot.contr.Idx) : (rowsDot.rhsIdx i q 1).val = (i 1).val := by
  unfold DotDims.rhsIdx
  rw [dif_neg (show ¬(1 : Fin S1024x1024.rank) ∈ rowsDot.rhsBatch by decide), dif_pos (show (1 : Fin S1024x1024.rank) ∈ rowsDot.rhsNonContracting by decide)]
  rfl

/-- The product into a zero accumulator, at row `r` and column `e`: the sum over the contracted channel. -/
theorem matmul_rows {φ₁ φ₂ : FTy} (a : FVec Ideal S256x1024 φ₁) (w : FVec Ideal S1024x1024 φ₂) (r : Fin 256) (e : Fin 1024) :
    matmul rowsDot none a w (constant (F := Ideal) S256x1024 .f32 0x00000000#32) (ix2 r e) = ∑ k : Fin 1024, a (ix2 r k) * w (ix2 k e) := by
  show FloatOps.matmul rowsDot none a w (constant (F := Ideal) S256x1024 .f32 0x00000000#32) (ix2 r e) = _
  rw [Ideal.matmul_constant_zero_apply, ← Equiv.sum_comp (contrEquiv1 rowsDot 1024 rfl rfl).symm]
  refine Finset.sum_congr rfl fun k _ => ?_
  have hk := contrEquiv1_symm_val rowsDot 1024 rfl rfl k
  have el : rowsDot.lhsIdx (ix2 r e) ((contrEquiv1 rowsDot 1024 rfl rfl).symm k) = ix2 r k := funext fun c => Fin.ext (by
    match c with
    | ⟨0, _⟩ => exact rowsDot_lhs0 _ _
    | ⟨1, _⟩ => exact (rowsDot_lhs1 _ _).trans hk)
  have er : rowsDot.rhsIdx (ix2 r e) ((contrEquiv1 rowsDot 1024 rfl rfl).symm k) = ix2 k e := funext fun c => Fin.ext (by
    match c with
    | ⟨0, _⟩ => exact (rowsDot_rhs0 _ _).trans hk
    | ⟨1, _⟩ => exact rowsDot_rhs1 _ _)
  rw [el, er]

/-- The bias row, spread over the block's rows: every row reads it at its own column. -/
theorem bias_rows (b : FVec Ideal S1x1024 .f32) (h1 : S1x1024.ShapeCasts S1x1024) (h2 : S1x1024.Broadcasts S256x1024)
    (r : Fin 256) (e : Fin 1024) :
    broadcastTo S256x1024 (shapeCast S1x1024 b h1) h2 (ix2 r e) = b (ix2 0 e) := by
  rw [shapeCast_self]
  exact broadcastTo_apply b h2 (ix2 r e) (ix2 0 e) (fun a => by
    match a with
    | ⟨0, _⟩ => rfl
    | ⟨1, _⟩ => rfl)

/-- A row's channels viewed as heads of lanes: head `h`, lane `d` is channel `64 h + d`. -/
theorem split_heads (y : FVec Ideal S256x1024 .f32) (hc : S256x1024.ShapeCasts S256x16x64) (r : Fin 256) (h : Fin 16) (d : Fin 64) :
    shapeCast S256x16x64 y hc (ix3 r h d) = y (ix2 r (chan h d)) :=
  shapeCast_apply y hc (ix3 r h d) (ix2 r (chan h d)) (by
    rw [Shape.rowMajor_val_two, Shape.rowMajor_val_three]
    show r.val * 1024 + (h.val * 64 + d.val) = (r.val * 16 + h.val) * 64 + d.val
    omega)

/-- And back: channel `e` is lane `e mod 64` of head `e / 64`. -/
theorem merge_heads (y : FVec Ideal S256x16x64 .f32) (hc : S256x16x64.ShapeCasts S256x1024) (r : Fin 256) (e : Fin 1024) :
    shapeCast S256x1024 y hc (ix2 r e) = y (ix3 r (headOf e) (laneOf e)) :=
  shapeCast_apply y hc (ix2 r e) (ix3 r (headOf e) (laneOf e)) (by
    rw [Shape.rowMajor_val_two, Shape.rowMajor_val_three]
    show (r.val * 16 + e.val / 64) * 64 + e.val % 64 = r.val * 1024 + e.val
    omega)

/-- The query projection of the block, at row `r`, head `h`, lane `d`. -/
theorem pay3_apply (x : FVec Ideal S256x1024 .f32) (w : FVec Ideal S1024x1024 .bf16) (b : FVec Ideal S1x1024 .f32)
    (r : Fin 256) (h : Fin 16) (d : Fin 64) :
    Gen.k0_pay3 (F := Ideal) x w b (ix3 r h d) = proj (fun k => x (ix2 r k)) (fun e k => w (ix2 k e)) (fun e => b (ix2 0 e)) (chan h d) := by
  unfold Gen.k0_pay3 Gen.k0_pay2
  refine (split_heads _ _ r h d).trans ?_
  refine (addf_apply _ _ _).trans ?_
  refine congrArg₂ (· + ·) ?_ (bias_rows b _ _ r (chan h d))
  rw [shapeCast_self]
  exact matmul_rows _ w r (chan h d)

/-- The key projection: the same operations on its own weights. -/
theorem pay4_apply (x : FVec Ideal S256x1024 .f32) (w : FVec Ideal S1024x1024 .bf16) (b : FVec Ideal S1x1024 .f32)
    (r : Fin 256) (h : Fin 16) (d : Fin 64) :
    Gen.k0_pay4 (F := Ideal) x w b (ix3 r h d) = proj (fun k => x (ix2 r k)) (fun e k => w (ix2 k e)) (fun e => b (ix2 0 e)) (chan h d) :=
  pay3_apply x w b r h d

/-- The value projection: the same operations on its own weights. -/
theorem pay5_apply (x : FVec Ideal S256x1024 .f32) (w : FVec Ideal S1024x1024 .bf16) (b : FVec Ideal S1x1024 .f32)
    (r : Fin 256) (h : Fin 16) (d : Fin 64) :
    Gen.k0_pay5 (F := Ideal) x w b (ix3 r h d) = proj (fun k => x (ix2 r k)) (fun e k => w (ix2 k e)) (fun e => b (ix2 0 e)) (chan h d) :=
  pay3_apply x w b r h d

end Cert.CrossHead.Block

end
-- ==== Proof.Block.Heads.lean ====
/-
  The head-against-head pieces of one block of 256 token rows, read at an index over the extended reals.

  A score column: the query heads times ONE key head (a slice of the key block along the head axis, spread back over
  all sixteen heads), summed over the 64 lanes and kept as a unit axis — at row `r`, head `h` it is
  `∑ d, q[r,h,d] · k[r,j,d]`. Sixteen such columns laid side by side are the score matrix. The softmax over the scored
  heads: scale, subtract the row maximum (a fold of `max` from `-∞`), exponentiate, divide by the lane sum. One step of
  the value mix: the running total plus weight column `j` (spread over lanes) times value head `j` (spread over heads).
-/
import proofs.«133220_j58720792871836_2_alg».proof.Proof.Gen.KernelIdeal.Skeleton
import proofs.«133220_j58720792871836_2_alg».proof.Proof.Spec
import Idealize.ShloMosaic.Lib.ValueIdx
import Idealize.ShloMosaic.Lib.Pipeline.Value
import Idealize.ShloMosaic.PureOps.Ideal.Laws

noncomputable section

open scoped BigOperators

namespace Cert.CrossHead.Block

open Idealize.ShloMosaic Idealize.ShloMosaic.ValueIdx Cert.KernelIdeal Cert.CrossHead

/-- A per-(row, head) value kept with a trailing unit axis reads the value. -/
theorem keep_lane (y : FVec Ideal S256x16 .f32) (hc : S256x16.ShapeCasts S256x16x1) (r : Fin 256) (h : Fin 16) :
    shapeCast S256x16x1 y hc (ix3 r h 0) = y (ix2 r h) :=
  shapeCast_apply y hc (ix3 r h 0) (ix2 r h) (by
    rw [Shape.rowMajor_val_two, Shape.rowMajor_val_three]
    show r.val * 16 + h.val = (r.val * 16 + h.val) * 1 + 0
    omega)

/-- The sum over the 64 lanes of a head. -/
theorem lane_sum64 (src : FVec Ideal S256x16x64 .f32) (hr : S256x16x64.Reduces [2] S256x16) (hφ : FKind.Formats .f32)
    (hacc : (0x00000000#32 : BitVec (FTy.bits .f32)) = FKind.neutral .add .f32 hφ) (r : Fin 256) (h : Fin 16) :
    multiReduction .add [2] S256x16 src 0x00000000#32 hr hφ hacc (ix2 r h) = ∑ d : Fin 64, src (ix3 r h d) := by
  refine (Ideal.multiReduction_add_single src _ hr hφ hacc (ix2 r h)).trans ?_
  show ∑ d : Fin 64, src (hr.lift (ix2 r h) d) = _
  refine Finset.sum_congr rfl fun d _ => congrArg src (funext fun c => Fin.ext ?_)
  match c with
    | ⟨0, _⟩ => rfl
    | ⟨1, _⟩ => rfl
    | ⟨2, _⟩ => rfl

/-- The sum over the sixteen scored heads. -/
theorem lane_sum16 (src : FVec Ideal S256x16x16 .f32) (hr : S256x16x16.Reduces [2] S256x16) (hφ : FKind.Formats .f32)
    (hacc : (0x00000000#32 : BitVec (FTy.bits .f32)) = FKind.neutral .add .f32 hφ) (r : Fin 256) (h : Fin 16) :
    multiReduction .add [2] S256x16 src 0x00000000#32 hr hφ hacc (ix2 r h) = ∑ j : Fin 16, src (ix3 r h j) := by
  refine (Ideal.multiReduction_add_single src _ hr hφ hacc (ix2 r h)).trans ?_
  show ∑ j : Fin 16, src (hr.lift (ix2 r h) j) = _
  refine Finset.sum_congr rfl fun d _ => congrArg src (funext fun c => Fin.ext ?_)
  match c with
    | ⟨0, _⟩ => rfl
    | ⟨1, _⟩ => rfl
    | ⟨2, _⟩ => rfl

/-- The maximum over the sixteen scored heads, as a fold from `-∞`. -/
theorem lane_max16 (src : FVec Ideal S256x16x16 .f32) (hr : S256x16x16.Reduces [2] S256x16) (hφ : FKind.Formats .f32)
    (hacc : (0xFF800000#32 : BitVec (FTy.bits .f32)) = FKind.neutral .maximumf .f32 hφ) (r : Fin 256) (h : Fin 16) :
    multiReduction .maximumf [2] S256x16 src 0xFF800000#32 hr hφ hacc (ix2 r h)
      = (Finset.univ : Finset (Fin 16)).fold max negInf (fun j => src (ix3 r h j)) := by
  refine (Ideal.multiReduction_maximumf_single src _ hr hφ hacc (ix2 r h)).trans ?_
  show (Finset.univ : Finset (Fin 16)).fold max negInf (src ∘ hr.lift (ix2 r h)) = _
  refine congrArg (fun f => Finset.fold max negInf f (Finset.univ : Finset (Fin 16))) ?_
  funext j
  refine congrArg src (funext fun c => Fin.ext ?_)
  match c with
    | ⟨0, _⟩ => rfl
    | ⟨1, _⟩ => rfl
    | ⟨2, _⟩ => rfl

/-- Score column `j`: the query heads against key head `j`, summed over lanes. -/
theorem col_apply (Q K : FVec Ideal S256x16x64 .f32) (jn : Nat) (hj : jn < 16)
    (hs : S256x16x64.Slices ![0, jn, 0] S256x1x64) (hb : S256x1x64.Broadcasts S256x16x64)
    (hr : S256x16x64.Reduces [2] S256x16) (hφ : FKind.Formats .f32)
    (hacc : (0x00000000#32 : BitVec (FTy.bits .f32)) = FKind.neutral .add .f32 hφ)
    (hc : S256x16.ShapeCasts S256x16x1) (r : Fin 256) (h : Fin 16) :
    shapeCast S256x16x1 (multiReduction .add [2] S256x16
        (mulf Q (broadcastTo S256x16x64 (extractStridedSlice S256x1x64 ![0, jn, 0] K hs) hb)) 0x00000000#32 hr hφ hacc) hc (ix3 r h 0)
      = ∑ d : Fin 64, Q (ix3 r h d) * K (ix3 r ⟨jn, hj⟩ d) := by
  refine (keep_lane _ hc r h).trans ?_
  refine (lane_sum64 _ hr hφ hacc r h).trans ?_
  refine Finset.sum_congr rfl fun d _ => ?_
  refine (mulf_apply _ _ _).trans (congrArg (Q (ix3 r h d) * ·) ?_)
  refine (broadcastTo_apply _ hb (ix3 r h d) (ix3 r 0 d) (fun c => by
    match c with
    | ⟨0, _⟩ => rfl
    | ⟨1, _⟩ => rfl
    | ⟨2, _⟩ => rfl)).trans ?_
  exact extractStridedSlice_apply _ K hs (ix3 r 0 d) (ix3 r ⟨jn, hj⟩ d) (fun c => by
    match c with
    | ⟨0, _⟩ => exact (Nat.zero_add _).symm
    | ⟨1, _⟩ => rfl
    | ⟨2, _⟩ => exact (Nat.zero_add _).symm)

/-- A per-(row, head) value spread over the sixteen scored heads reads the value. -/
theorem spread16 (y : FVec Ideal S256x16 .f32) (hc : S256x16.ShapeCasts S256x16x1) (hb : S256x16x1.Broadcasts S256x16x16)
    (r : Fin 256) (h j : Fin 16) :
    broadcastTo S256x16x16 (shapeCast S256x16x1 y hc) hb (ix3 r h j) = y (ix2 r h) :=
  (broadcastTo_apply _ hb (ix3 r h j) (ix3 r h 0) (fun c => by
    match c with
    | ⟨0, _⟩ => rfl
    | ⟨1, _⟩ => rfl
    | ⟨2, _⟩ => rfl)).trans (keep_lane y hc r h)

/-! ## The softmax over the scored heads -/

section Softmax

variable (C : FVec Ideal S256x16x16 .f32) (hr : S256x16x16.Reduces [2] S256x16) (hφ : FKind.Formats .f32)
  (hmax : (0xFF800000#32 : BitVec (FTy.bits .f32)) = FKind.neutral .maximumf .f32 hφ)
  (hadd : (0x00000000#32 : BitVec (FTy.bits .f32)) = FKind.neutral .add .f32 hφ)
  (hc : S256x16.ShapeCasts S256x16x1) (hb : S256x16x1.Broadcasts S256x16x16)

/-- The scores times the scale. -/
abbrev scaledV : FVec Ideal S256x16x16 .f32 := mulf C (broadcast S256x16x16 (Scalar.ofBits (F := Ideal) .f32 0x3E000000#32))

/-- The row maxima, as the body takes them. -/
abbrev maxV : FVec Ideal S256x16 .f32 :=
  maximumf (broadcast S256x16 (Scalar.ofBits (F := Ideal) .f32 0xFF800000#32)) (multiReduction .maximumf [2] S256x16 (scaledV C) 0xFF800000#32 hr hφ hmax)

/-- The exponentials of the scores less their row maximum. -/
abbrev expV : FVec Ideal S256x16x16 .f32 :=
  exp (subf (scaledV C) (broadcastTo S256x16x16 (shapeCast S256x16x1 (maxV C hr hφ hmax) hc) hb))

/-- The weights. -/
abbrev softV : FVec Ideal S256x16x16 .f32 :=
  divf (expV C hr hφ hmax hc hb)
    (broadcastTo S256x16x16 (shapeCast S256x16x1 (multiReduction .add [2] S256x16 (expV C hr hφ hmax hc hb) 0x00000000#32 hr hφ hadd) hc) hb)

theorem maxV_apply (r : Fin 256) (h : Fin 16) :
    maxV C hr hφ hmax (ix2 r h) = rowMax (fun j => C (ix3 r h j) * scale) := by
  show max negInf (multiReduction .maximumf [2] S256x16 (scaledV C) 0xFF800000#32 hr hφ hmax (ix2 r h)) = _
  rw [lane_max16]
  rfl

theorem expV_apply (r : Fin 256) (h j : Fin 16) :
    expV C hr hφ hmax hc hb (ix3 r h j) = expo (fun h j => C (ix3 r h j) * scale) h j := by
  show Ideal.exp (C (ix3 r h j) * scale - broadcastTo S256x16x16 (shapeCast S256x16x1 (maxV C hr hφ hmax) hc) hb (ix3 r h j)) = _
  rw [spread16, maxV_apply]
  rfl

/-- The body's softmax, at row `r`, head `h`, scored head `j`. -/
theorem softV_apply (r : Fin 256) (h j : Fin 16) :
    softV C hr hφ hmax hadd hc hb (ix3 r h j) = weights (fun h j => C (ix3 r h j) * scale) h j := by
  show Ideal.div (expV C hr hφ hmax hc hb (ix3 r h j))
    (broadcastTo S256x16x16 (shapeCast S256x16x1 (multiReduction .add [2] S256x16 (expV C hr hφ hmax hc hb) 0x00000000#32 hr hφ hadd) hc) hb (ix3 r h j)) = _
  rw [spread16, lane_sum16, expV_apply]
  simp only [expV_apply]
  rfl

end Softmax

/-! ## Sixteen columns side by side -/

/-- Sixteen one-lane columns laid side by side along the last axis: position `j` reads column `j`. The list of
    columns is given as the list of a function of the position. -/
theorem concat16_apply (c : Fin 16 → FVec Ideal S256x16x1 .f32) (xs : List ((s : Shape) × (s.Idx → Ideal .f32)))
    (hxs : xs = List.ofFn fun n : Fin 16 => (⟨S256x16x1, c n⟩ : (s : Shape) × (s.Idx → Ideal .f32)))
    (hcat : Shape.Concatenates (xs.map (·.1)) S256x16x16 2) (r : Fin 256) (h j : Fin 16) :
    concatenate S256x16x16 2 xs hcat (ix3 r h j) = c j (ix3 r h 0) := by
  subst hxs
  exact concatenate_ofFn_unit_apply (t := S256x16x16) (s₁ := S256x16x1) (2 : Fin 3) c hcat rfl rfl (ix3 r h j) j rfl (ix3 r h 0) (fun b hb => by
    match b with
    | ⟨0, _⟩ => rfl
    | ⟨1, _⟩ => rfl
    | ⟨2, _⟩ => exact absurd rfl hb)

/-! ## One step of the value mix -/

/-- The running total plus weight column `j` times value head `j`. -/
theorem step_apply (acc : FVec Ideal S256x16x64 .f32) (A : FVec Ideal S256x16x16 .f32) (V : FVec Ideal S256x16x64 .f32)
    (jn : Nat) (hj : jn < 16) (hsA : S256x16x16.Slices ![0, 0, jn] S256x16x1) (hsV : S256x16x64.Slices ![0, jn, 0] S256x1x64)
    (hbA : S256x16x1.Broadcasts S256x16x64) (hbV : S256x1x64.Broadcasts S256x16x64) (r : Fin 256) (h : Fin 16) (d : Fin 64) :
    addf acc (mulf (broadcastTo S256x16x64 (extractStridedSlice S256x16x1 ![0, 0, jn] A hsA) hbA)
        (broadcastTo S256x16x64 (extractStridedSlice S256x1x64 ![0, jn, 0] V hsV) hbV)) (ix3 r h d)
      = acc (ix3 r h d) + A (ix3 r h ⟨jn, hj⟩) * V (ix3 r ⟨jn, hj⟩ d) := by
  refine (addf_apply _ _ _).trans (congrArg (acc (ix3 r h d) + ·) ?_)
  refine (mulf_apply _ _ _).trans (congrArg₂ (· * ·) ?_ ?_)
  · refine (broadcastTo_apply _ hbA (ix3 r h d) (ix3 r h 0) (fun c => by
      match c with
    | ⟨0, _⟩ => rfl
    | ⟨1, _⟩ => rfl
    | ⟨2, _⟩ => rfl)).trans ?_
    exact extractStridedSlice_apply _ A hsA (ix3 r h 0) (ix3 r h ⟨jn, hj⟩) (fun c => by
      match c with
      | ⟨0, _⟩ => exact (Nat.zero_add _).symm
      | ⟨1, _⟩ => exact (Nat.zero_add _).symm
      | ⟨2, _⟩ => rfl)
  · refine (broadcastTo_apply _ hbV (ix3 r h d) (ix3 r 0 d) (fun c => by
      match c with
    | ⟨0, _⟩ => rfl
    | ⟨1, _⟩ => rfl
    | ⟨2, _⟩ => rfl)).trans ?_
    exact extractStridedSlice_apply _ V hsV (ix3 r 0 d) (ix3 r ⟨jn, hj⟩ d) (fun c => by
      match c with
      | ⟨0, _⟩ => exact (Nat.zero_add _).symm
      | ⟨1, _⟩ => rfl
      | ⟨2, _⟩ => exact (Nat.zero_add _).symm)

end Cert.CrossHead.Block

end
-- ==== Proof.Payload.lean ====
/-
  What one grid point stores, at row `r` and channel `e` of its block of 256 token rows: the result row `rowOut` of row
  `r` of the token block, the four weight blocks read transposed and the four bias rows.

  In order: the sixteen score columns are each `∑ d, q[r,h,d] · k[r,j,d]`; laid side by side, scaled and passed through
  the softmax they are the weights of row `r`; the value mix is a running total over the heads `0, 1, …, 15`, carried
  from one part of the body to the next, which after the sixteenth head is the sum over all heads; and the output
  projection of the mixed heads, viewed again as 1024 channels, closes the row.
-/
import proofs.«133220_j58720792871836_2_alg».proof.Proof.Block.Linear
import proofs.«133220_j58720792871836_2_alg».proof.Proof.Block.Heads

noncomputable section

open scoped BigOperators

namespace Cert.CrossHead.Block

open Idealize.ShloMosaic Idealize.ShloMosaic.ValueIdx Cert.KernelIdeal Cert.KernelIdeal.Gen Cert.CrossHead

/-! ## A running total over the heads -/

/-- The first `n` terms of a sum over the sixteen heads, added in order from zero. -/
def upTo (f : Fin 16 → EReal) : Nat → EReal
  | 0 => 0
  | n + 1 => upTo f n + (if h : n < 16 then f ⟨n, h⟩ else 0)

/-- After the sixteenth head the running total is the sum over all heads. -/
theorem upTo_sixteen (f : Fin 16 → EReal) : upTo f 16 = ∑ j : Fin 16, f j := by
  rw [sum_sixteen]
  rfl

/-- One step of the value mix carries the running total from `jn` heads to `jn + 1`. -/
theorem step_total (acc : FVec Ideal S256x16x64 .f32) (A : FVec Ideal S256x16x16 .f32) (V : FVec Ideal S256x16x64 .f32)
    (jn : Nat) (hj : jn < 16) (hsA : S256x16x16.Slices ![0, 0, jn] S256x16x1) (hsV : S256x16x64.Slices ![0, jn, 0] S256x1x64)
    (hbA : S256x16x1.Broadcasts S256x16x64) (hbV : S256x1x64.Broadcasts S256x16x64) (r : Fin 256) (h : Fin 16) (d : Fin 64)
    (hacc : acc (ix3 r h d) = upTo (fun j => A (ix3 r h j) * V (ix3 r j d)) jn) :
    addf acc (mulf (broadcastTo S256x16x64 (extractStridedSlice S256x16x1 ![0, 0, jn] A hsA) hbA)
        (broadcastTo S256x16x64 (extractStridedSlice S256x1x64 ![0, jn, 0] V hsV) hbV)) (ix3 r h d)
      = upTo (fun j => A (ix3 r h j) * V (ix3 r j d)) (jn + 1) := by
  refine (step_apply acc A V jn hj hsA hsV hbA hbV r h d).trans ?_
  rw [hacc]
  show _ = upTo _ jn + (if h' : jn < 16 then _ else 0)
  rw [dif_pos hj]

section Body

variable (x0 : FVec Ideal S256x1024 .f32) (x1 : FVec Ideal S1024x1024 .bf16) (x2 : FVec Ideal S1x1024 .f32)
  (x3 : FVec Ideal S1024x1024 .bf16) (x4 : FVec Ideal S1x1024 .f32) (x5 : FVec Ideal S1024x1024 .bf16) (x6 : FVec Ideal S1x1024 .f32)
  (x7 : FVec Ideal S1024x1024 .bf16) (x8 : FVec Ideal S1x1024 .f32)

/-- The block's query, key and value projections, as heads of lanes. -/
abbrev qB : FVec Ideal S256x16x64 .f32 := k0_pay3 (F := Ideal) x0 x1 x2
abbrev kB : FVec Ideal S256x16x64 .f32 := k0_pay4 (F := Ideal) x0 x3 x4
abbrev vB : FVec Ideal S256x16x64 .f32 := k0_pay5 (F := Ideal) x0 x5 x6

/-- The sixteen score columns, by the key head they score against. -/
abbrev scoreCols : Fin 16 → FVec Ideal S256x16x1 .f32 :=
  ![k0_pay6 (F := Ideal) x0 x1 x2 x3 x4,
    k0_pay7 (F := Ideal) x0 x1 x2 x3 x4,
    k0_pay9 (F := Ideal) (k0_pay8 x0 x1 x2 x3 x4),
    k0_pay10 (F := Ideal) (qB x0 x1 x2) (kB x0 x3 x4),
    k0_pay11 (F := Ideal) (qB x0 x1 x2) (kB x0 x3 x4),
    k0_pay12 (F := Ideal) (qB x0 x1 x2) (kB x0 x3 x4),
    k0_pay13 (F := Ideal) (qB x0 x1 x2) (kB x0 x3 x4),
    k0_pay14 (F := Ideal) (qB x0 x1 x2) (kB x0 x3 x4),
    k0_pay15 (F := Ideal) (qB x0 x1 x2) (kB x0 x3 x4),
    k0_pay16 (F := Ideal) (qB x0 x1 x2) (kB x0 x3 x4),
    k0_pay17 (F := Ideal) (qB x0 x1 x2) (kB x0 x3 x4),
    k0_pay18 (F := Ideal) (qB x0 x1 x2) (kB x0 x3 x4),
    shapeCast S256x16x1 (multiReduction .add [2] S256x16 (k0_pay19 (F := Ideal) (qB x0 x1 x2) (kB x0 x3 x4)) 0x00000000#32 reduces_S256x16x64_S256x16 (.inl rfl) rfl) shapeCasts_S256x16_S256x16x1,
    shapeCast S256x16x1 (multiReduction .add [2] S256x16 (mulf (qB x0 x1 x2) (broadcastTo S256x16x64 (extractStridedSlice S256x1x64 ![0, 13, 0] (kB x0 x3 x4) slices_S256x16x64_o0_13_0_S256x1x64) broadcasts_S256x1x64_S256x16x64)) 0x00000000#32 reduces_S256x16x64_S256x16 (.inl rfl) rfl) shapeCasts_S256x16_S256x16x1,
    shapeCast S256x16x1 (multiReduction .add [2] S256x16 (mulf (qB x0 x1 x2) (broadcastTo S256x16x64 (extractStridedSlice S256x1x64 ![0, 14, 0] (kB x0 x3 x4) slices_S256x16x64_o0_14_0_S256x1x64) broadcasts_S256x1x64_S256x16x64)) 0x00000000#32 reduces_S256x16x64_S256x16 (.inl rfl) rfl) shapeCasts_S256x16_S256x16x1,
    shapeCast S256x16x1 (multiReduction .add [2] S256x16 (mulf (qB x0 x1 x2) (broadcastTo S256x16x64 (extractStridedSlice S256x1x64 ![0, 15, 0] (kB x0 x3 x4) slices_S256x16x64_o0_15_0_S256x1x64) broadcasts_S256x1x64_S256x16x64)) 0x00000000#32 reduces_S256x16x64_S256x16 (.inl rfl) rfl) shapeCasts_S256x16_S256x16x1]

/-- Column `j` at row `r`, head `h`: the query head `h` against the key head `j`, summed over lanes. -/
theorem scoreCols_apply (j : Fin 16) (r : Fin 256) (h : Fin 16) :
    scoreCols x0 x1 x2 x3 x4 j (ix3 r h 0) = ∑ d : Fin 64, qB x0 x1 x2 (ix3 r h d) * kB x0 x3 x4 (ix3 r j d) :=
  match j with
  | ⟨0, _⟩ => by
    show (k0_pay6 (F := Ideal) x0 x1 x2 x3 x4) (ix3 r h 0) = _
    unfold k0_pay6
    exact col_apply _ _ 0 (by decide) _ _ _ _ _ _ r h
  | ⟨1, _⟩ => by
    show (k0_pay7 (F := Ideal) x0 x1 x2 x3 x4) (ix3 r h 0) = _
    unfold k0_pay7
    exact col_apply _ _ 1 (by decide) _ _ _ _ _ _ r h
  | ⟨2, _⟩ => by
    show (k0_pay9 (F := Ideal) (k0_pay8 x0 x1 x2 x3 x4)) (ix3 r h 0) = _
    unfold k0_pay9 k0_pay8
    exact col_apply _ _ 2 (by decide) _ _ _ _ _ _ r h
  | ⟨3, _⟩ => by
    show (k0_pay10 (F := Ideal) (qB x0 x1 x2) (kB x0 x3 x4)) (ix3 r h 0) = _
    unfold k0_pay10
    exact col_apply _ _ 3 (by decide) _ _ _ _ _ _ r h
  | ⟨4, _⟩ => by
    show (k0_pay11 (F := Ideal) (qB x0 x1 x2) (kB x0 x3 x4)) (ix3 r h 0) = _
    unfold k0_pay11
    exact col_apply _ _ 4 (by decide) _ _ _ _ _ _ r h
  | ⟨5, _⟩ => by
    show (k0_pay12 (F := Ideal) (qB x0 x1 x2) (kB x0 x3 x4)) (ix3 r h 0) = _
    unfold k0_pay12
    exact col_apply _ _ 5 (by decide) _ _ _ _ _ _ r h
  | ⟨6, _⟩ => by
    show (k0_pay13 (F := Ideal) (qB x0 x1 x2) (kB x0 x3 x4)) (ix3 r h 0) = _
    unfold k0_pay13
    exact col_apply _ _ 6 (by decide) _ _ _ _ _ _ r h
  | ⟨7, _⟩ => by
    show (k0_pay14 (F := Ideal) (qB x0 x1 x2) (kB x0 x3 x4)) (ix3 r h 0) = _
    unfold k0_pay14
    exact col_apply _ _ 7 (by decide) _ _ _ _ _ _ r h
  | ⟨8, _⟩ => by
    show (k0_pay15 (F := Ideal) (qB x0 x1 x2) (kB x0 x3 x4)) (ix3 r h 0) = _
    unfold k0_pay15
    exact col_apply _ _ 8 (by decide) _ _ _ _ _ _ r h
  | ⟨9, _⟩ => by
    show (k0_pay16 (F := Ideal) (qB x0 x1 x2) (kB x0 x3 x4)) (ix3 r h 0) = _
    unfold k0_pay16
    exact col_apply _ _ 9 (by decide) _ _ _ _ _ _ r h
  | ⟨10, _⟩ => by
    show (k0_pay17 (F := Ideal) (qB x0 x1 x2) (kB x0 x3 x4)) (ix3 r h 0) = _
    unfold k0_pay17
    exact col_apply _ _ 10 (by decide) _ _ _ _ _ _ r h
  | ⟨11, _⟩ => by
    show (k0_pay18 (F := Ideal) (qB x0 x1 x2) (kB x0 x3 x4)) (ix3 r h 0) = _
    unfold k0_pay18
    exact col_apply _ _ 11 (by decide) _ _ _ _ _ _ r h
  | ⟨12, _⟩ => by
    show (shapeCast S256x16x1 (multiReduction .add [2] S256x16 (k0_pay19 (F := Ideal) (qB x0 x1 x2) (kB x0 x3 x4)) 0x00000000#32 reduces_S256x16x64_S256x16 (.inl rfl) rfl) shapeCasts_S256x16_S256x16x1) (ix3 r h 0) = _
    unfold k0_pay19
    exact col_apply _ _ 12 (by decide) _ _ _ _ _ _ r h
  | ⟨13, _⟩ => by
    show (shapeCast S256x16x1 (multiReduction .add [2] S256x16 (mulf (qB x0 x1 x2) (broadcastTo S256x16x64 (extractStridedSlice S256x1x64 ![0, 13, 0] (kB x0 x3 x4) slices_S256x16x64_o0_13_0_S256x1x64) broadcasts_S256x1x64_S256x16x64)) 0x00000000#32 reduces_S256x16x64_S256x16 (.inl rfl) rfl) shapeCasts_S256x16_S256x16x1) (ix3 r h 0) = _
    exact col_apply _ _ 13 (by decide) _ _ _ _ _ _ r h
  | ⟨14, _⟩ => by
    show (shapeCast S256x16x1 (multiReduction .add [2] S256x16 (mulf (qB x0 x1 x2) (broadcastTo S256x16x64 (extractStridedSlice S256x1x64 ![0, 14, 0] (kB x0 x3 x4) slices_S256x16x64_o0_14_0_S256x1x64) broadcasts_S256x1x64_S256x16x64)) 0x00000000#32 reduces_S256x16x64_S256x16 (.inl rfl) rfl) shapeCasts_S256x16_S256x16x1) (ix3 r h 0) = _
    exact col_apply _ _ 14 (by decide) _ _ _ _ _ _ r h
  | ⟨15, _⟩ => by
    show (shapeCast S256x16x1 (multiReduction .add [2] S256x16 (mulf (qB x0 x1 x2) (broadcastTo S256x16x64 (extractStridedSlice S256x1x64 ![0, 15, 0] (kB x0 x3 x4) slices_S256x16x64_o0_15_0_S256x1x64) broadcasts_S256x1x64_S256x16x64)) 0x00000000#32 reduces_S256x16x64_S256x16 (.inl rfl) rfl) shapeCasts_S256x16_S256x16x1) (ix3 r h 0) = _
    exact col_apply _ _ 15 (by decide) _ _ _ _ _ _ r h
  | ⟨n + 16, hn⟩ => absurd hn (by omega)

/-- The block's softmax weights. -/
abbrev attnB : FVec Ideal S256x16x16 .f32 :=
  k0_pay20 (F := Ideal) (qB x0 x1 x2) (kB x0 x3 x4) (k0_pay6 (F := Ideal) x0 x1 x2 x3 x4) (k0_pay7 (F := Ideal) x0 x1 x2 x3 x4) (k0_pay9 (F := Ideal) (k0_pay8 x0 x1 x2 x3 x4)) (k0_pay10 (F := Ideal) (qB x0 x1 x2) (kB x0 x3 x4)) (k0_pay11 (F := Ideal) (qB x0 x1 x2) (kB x0 x3 x4)) (k0_pay12 (F := Ideal) (qB x0 x1 x2) (kB x0 x3 x4)) (k0_pay13 (F := Ideal) (qB x0 x1 x2) (kB x0 x3 x4)) (k0_pay14 (F := Ideal) (qB x0 x1 x2) (kB x0 x3 x4)) (k0_pay15 (F := Ideal) (qB x0 x1 x2) (kB x0 x3 x4)) (k0_pay16 (F := Ideal) (qB x0 x1 x2) (kB x0 x3 x4)) (k0_pay17 (F := Ideal) (qB x0 x1 x2) (kB x0 x3 x4)) (k0_pay18 (F := Ideal) (qB x0 x1 x2) (kB x0 x3 x4)) (k0_pay19 (F := Ideal) (qB x0 x1 x2) (kB x0 x3 x4))

/-- Row `r`'s query and key rows. -/
abbrev qRow (r : Fin 256) : Fin 1024 → EReal := proj (fun k => x0 (ix2 r k)) (fun e k => x1 (ix2 k e)) (fun e => x2 (ix2 0 e))
abbrev kRow (r : Fin 256) : Fin 1024 → EReal := proj (fun k => x0 (ix2 r k)) (fun e k => x3 (ix2 k e)) (fun e => x4 (ix2 0 e))
abbrev vRow (r : Fin 256) : Fin 1024 → EReal := proj (fun k => x0 (ix2 r k)) (fun e k => x5 (ix2 k e)) (fun e => x6 (ix2 0 e))

/-- The weights of row `r`: the softmax of its scaled scores. -/
theorem attnB_apply (r : Fin 256) (h j : Fin 16) :
    attnB x0 x1 x2 x3 x4 (ix3 r h j) = weights (score (qRow x0 x1 x2 r) (kRow x0 x3 x4 r)) h j := by
  unfold attnB k0_pay20
  refine (softV_apply _ _ _ _ _ _ _ r h j).trans ?_
  refine congrArg (fun s => weights s h j) (funext fun h' => funext fun j' => ?_)
  show _ * scale = (∑ d : Fin 64, _) * scale
  refine congrArg (· * scale) ?_
  refine (concat16_apply (scoreCols x0 x1 x2 x3 x4) _ rfl _ r h' j').trans ?_
  refine (scoreCols_apply x0 x1 x2 x3 x4 j' r h').trans ?_
  exact Finset.sum_congr rfl fun d _ => congrArg₂ (· * ·) (pay3_apply x0 x1 x2 r h' d) (pay4_apply x0 x3 x4 r j' d)

/-- The term of head `j` in the value mix at row `r`, head `h`, lane `d`. -/
abbrev mixTerm (r : Fin 256) (h : Fin 16) (d : Fin 64) : Fin 16 → EReal :=
  fun j => attnB x0 x1 x2 x3 x4 (ix3 r h j) * vB x0 x5 x6 (ix3 r j d)

/-- The running total after the heads 0, 1, 2. -/
abbrev acc3 : FVec Ideal S256x16x64 .f32 :=
  k0_pay21 (F := Ideal) (qB x0 x1 x2) (kB x0 x3 x4) (vB x0 x5 x6) (k0_pay6 (F := Ideal) x0 x1 x2 x3 x4) (k0_pay7 (F := Ideal) x0 x1 x2 x3 x4) (k0_pay9 (F := Ideal) (k0_pay8 x0 x1 x2 x3 x4)) (k0_pay10 (F := Ideal) (qB x0 x1 x2) (kB x0 x3 x4)) (k0_pay11 (F := Ideal) (qB x0 x1 x2) (kB x0 x3 x4)) (k0_pay12 (F := Ideal) (qB x0 x1 x2) (kB x0 x3 x4)) (k0_pay13 (F := Ideal) (qB x0 x1 x2) (kB x0 x3 x4)) (k0_pay14 (F := Ideal) (qB x0 x1 x2) (kB x0 x3 x4)) (k0_pay15 (F := Ideal) (qB x0 x1 x2) (kB x0 x3 x4)) (k0_pay16 (F := Ideal) (qB x0 x1 x2) (kB x0 x3 x4)) (k0_pay17 (F := Ideal) (qB x0 x1 x2) (kB x0 x3 x4)) (k0_pay18 (F := Ideal) (qB x0 x1 x2) (kB x0 x3 x4)) (k0_pay19 (F := Ideal) (qB x0 x1 x2) (kB x0 x3 x4))

theorem acc3_apply (r : Fin 256) (h : Fin 16) (d : Fin 64) :
    acc3 x0 x1 x2 x3 x4 x5 x6 (ix3 r h d) = upTo (mixTerm x0 x1 x2 x3 x4 x5 x6 r h d) 3 := by
  unfold acc3 k0_pay21
  refine (step_total _ _ _ 2 (by decide) _ _ _ _ r h d (step_total _ _ _ 1 (by decide) _ _ _ _ r h d (step_total _ _ _ 0 (by decide) _ _ _ _ r h d ?_)))
  exact Ideal.ofBits_zero_f32

/-- The running total after the heads 0 to 12. -/
abbrev acc13 : FVec Ideal S256x16x64 .f32 :=
  k0_pay24 (F := Ideal) (vB x0 x5 x6) (attnB x0 x1 x2 x3 x4) (acc3 x0 x1 x2 x3 x4 x5 x6)
    (k0_pay22 (F := Ideal) (qB x0 x1 x2) (kB x0 x3 x4) (k0_pay6 (F := Ideal) x0 x1 x2 x3 x4) (k0_pay7 (F := Ideal) x0 x1 x2 x3 x4) (k0_pay9 (F := Ideal) (k0_pay8 x0 x1 x2 x3 x4)) (k0_pay10 (F := Ideal) (qB x0 x1 x2) (kB x0 x3 x4)) (k0_pay11 (F := Ideal) (qB x0 x1 x2) (kB x0 x3 x4)) (k0_pay12 (F := Ideal) (qB x0 x1 x2) (kB x0 x3 x4)) (k0_pay13 (F := Ideal) (qB x0 x1 x2) (kB x0 x3 x4)) (k0_pay14 (F := Ideal) (qB x0 x1 x2) (kB x0 x3 x4)) (k0_pay15 (F := Ideal) (qB x0 x1 x2) (kB x0 x3 x4)) (k0_pay16 (F := Ideal) (qB x0 x1 x2) (kB x0 x3 x4)) (k0_pay17 (F := Ideal) (qB x0 x1 x2) (kB x0 x3 x4)) (k0_pay18 (F := Ideal) (qB x0 x1 x2) (kB x0 x3 x4)) (k0_pay19 (F := Ideal) (qB x0 x1 x2) (kB x0 x3 x4))) (k0_pay23 (F := Ideal) (vB x0 x5 x6))

theorem acc13_apply (r : Fin 256) (h : Fin 16) (d : Fin 64) :
    acc13 x0 x1 x2 x3 x4 x5 x6 (ix3 r h d) = upTo (mixTerm x0 x1 x2 x3 x4 x5 x6 r h d) 13 := by
  unfold acc13 k0_pay24 k0_pay22 k0_pay23
  exact (step_total _ _ _ 12 (by decide) _ _ _ _ r h d (step_total _ _ _ 11 (by decide) _ _ _ _ r h d (step_total _ _ _ 10 (by decide) _ _ _ _ r h d (step_total _ _ _ 9 (by decide) _ _ _ _ r h d (step_total _ _ _ 8 (by decide) _ _ _ _ r h d (step_total _ _ _ 7 (by decide) _ _ _ _ r h d (step_total _ _ _ 6 (by decide) _ _ _ _ r h d (step_total _ _ _ 5 (by decide) _ _ _ _ r h d (step_total _ _ _ 4 (by decide) _ _ _ _ r h d (step_total _ _ _ 3 (by decide) _ _ _ _ r h d (acc3_apply x0 x1 x2 x3 x4 x5 x6 r h d)))))))))))

/-- What the grid point stores: the body's one stored value, as a term of the nine input blocks. -/
abbrev stored : FVec Ideal S256x1024 .f32 :=
  k0_pay1 (F := Ideal) (vB x0 x5 x6) (attnB x0 x1 x2 x3 x4) (acc13 x0 x1 x2 x3 x4 x5 x6)
    (k0_pay25 (F := Ideal) (attnB x0 x1 x2 x3 x4)) (k0_pay26 (F := Ideal) (vB x0 x5 x6)) x7 x8

/-- The stored value at row `r`, channel `e` is the result row of row `r`. -/
theorem stored_apply (r : Fin 256) (e : Fin 1024) :
    stored x0 x1 x2 x3 x4 x5 x6 x7 x8 (ix2 r e)
      = rowOut (fun k => x0 (ix2 r k)) (fun e k => x1 (ix2 k e)) (fun e => x2 (ix2 0 e)) (fun e k => x3 (ix2 k e)) (fun e => x4 (ix2 0 e))
          (fun e k => x5 (ix2 k e)) (fun e => x6 (ix2 0 e)) (fun e k => x7 (ix2 k e)) (fun e => x8 (ix2 0 e)) e := by
  unfold stored k0_pay1 k0_pay25 k0_pay26
  show _ = (∑ k : Fin 1024, _ * _) + _
  refine (addf_apply _ _ _).trans ?_
  refine congrArg₂ (· + ·) ?_ (bias_rows x8 _ _ r e)
  refine (matmul_rows _ _ r e).trans ?_
  refine Finset.sum_congr rfl fun k _ => congrArg₂ (· * ·) ?_ (congrFun (shapeCast_self x7 _) (ix2 k e))
  refine (truncf_apply (ψ := .bf16) _ bitsLt_bf16_f32 (ix2 r k)).trans ?_
  refine (merge_heads _ _ r k).trans ?_
  refine ((step_total _ _ _ 15 (by decide) _ _ _ _ r (headOf k) (laneOf k) (step_total _ _ _ 14 (by decide) _ _ _ _ r (headOf k) (laneOf k) (step_total _ _ _ 13 (by decide) _ _ _ _ r (headOf k) (laneOf k) (acc13_apply x0 x1 x2 x3 x4 x5 x6 r (headOf k) (laneOf k)))))).trans ?_
  rw [upTo_sixteen]
  exact Finset.sum_congr rfl fun j _ => congrArg₂ (· * ·) (attnB_apply x0 x1 x2 x3 x4 r (headOf k) j) (pay5_apply x0 x5 x6 r j (laneOf k))

end Body

end Cert.CrossHead.Block

end
-- ==== Proof.KernelValue.lean ====
/-
  From blocks to the array: what the kernel's result array holds after the run.

  The grid has 128 points; point `t` stages rows `256 t … 256 t + 255` of the token array and, at every point, the whole
  of each transposed weight matrix and of each bias row, and writes back rows `256 t … 256 t + 255` of the result. What
  it writes at row `r`, channel `e` of its block is the result row of token `256 t + r` at channel `e` — block `t` of
  `wholeOut` of the argument arrays. The 128 blocks tile the result array (token `n` lies in block `n / 256`), so the
  array ends holding `wholeOut`.
-/
import proofs.«133220_j58720792871836_2_alg».proof.Proof.Gen.KernelIdeal.Value
import proofs.«133220_j58720792871836_2_alg».proof.Proof.Payload
import Idealize.ShloMosaic.Lib.Pipeline.Value
import Idealize.ShloMosaic.Lib.StableHlo.Run
import Idealize.ShloMosaic.Lib.Tactic

noncomputable section

open scoped BigOperators

namespace Cert.CrossHead.Kernel

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.CrossHead Cert.CrossHead.Block

variable (m : (ℓ : Loc nD τ sig) → Buf (Elt Ideal) ℓ) (ρ : Dev nD → PrngReg)

theorem hz : (![0, 0] : Fin 2 → Nat) = fun _ => 0 := funext fun a => by fin_cases a <;> rfl

/-! ## What the region finds in the staged arrays -/

/-- The array window 1 stages is argument `main_arg1` transposed (its rounding to bf16 is the identity here). -/
theorem V_main_v1 (c : Dev nD) (k e : Fin 1024) :
    (V m c main_v1 : S1024x1024.Idx → EReal) (ix2 k e) = (m ((c : Thread nD τ).loc main_arg1) : S1024x1024.Idx → EReal) (ix2 e k) := by
  have e0 : (V m c main_v1 : S1024x1024.Idx → EReal)
      = truncf (F := Ideal) .bf16 (transpose S1024x1024 [1, 0] (m ((c : Thread nD τ).loc main_arg1) : S1024x1024.Idx → EReal) transposes_S1024x1024_S1024x1024_1_0) bitsLt_bf16_f32 := by
    dsimp only [V, hostOps0]; after_results <;> rfl
  rw [e0]
  exact transpose_apply [1, 0] _ transposes_S1024x1024_S1024x1024_1_0 (ix2 k e) (ix2 e k) (fun b => by
    match b with
    | ⟨0, _⟩ => rfl
    | ⟨1, _⟩ => rfl)

/-- Window 1 holds its whole array at every point. -/
theorem iblk1_apply (c : Dev nD) (t : Fin cfg0.N) (k e : Fin 1024) :
    (iblk m c 1 t : FVec Ideal S1024x1024 .bf16) (ix2 k e) = (m ((c : Thread nD τ).loc main_arg1) : S1024x1024.Idx → EReal) (ix2 e k) := by
  have hi : win0_1.index t 0 = 0 ∧ win0_1.index t 1 = 0 :=
    (by decide +kernel : ∀ t : Fin grid0.N, win0_1.index t 0 = 0 ∧ win0_1.index t 1 = 0) t
  unfold iblk
  rw [View.read_apply]
  refine Eq.trans (congrArg (V m c main_v1 : S1024x1024.Idx → EReal) (funext fun a => Fin.ext ?_)) (V_main_v1 m c k e)
  match a with
  | ⟨0, _⟩ => show win0_1.index t 0 * 1024 + 1 * k.val = k.val; rw [hi.1]; omega
  | ⟨1, _⟩ => show win0_1.index t 1 * 1024 + 1 * e.val = e.val; rw [hi.2]; omega

/-- The array window 3 stages is argument `main_arg3` transposed (its rounding to bf16 is the identity here). -/
theorem V_main_v3 (c : Dev nD) (k e : Fin 1024) :
    (V m c main_v3 : S1024x1024.Idx → EReal) (ix2 k e) = (m ((c : Thread nD τ).loc main_arg3) : S1024x1024.Idx → EReal) (ix2 e k) := by
  have e0 : (V m c main_v3 : S1024x1024.Idx → EReal)
      = truncf (F := Ideal) .bf16 (transpose S1024x1024 [1, 0] (m ((c : Thread nD τ).loc main_arg3) : S1024x1024.Idx → EReal) transposes_S1024x1024_S1024x1024_1_0) bitsLt_bf16_f32 := by
    dsimp only [V, hostOps0]; after_results <;> rfl
  rw [e0]
  exact transpose_apply [1, 0] _ transposes_S1024x1024_S1024x1024_1_0 (ix2 k e) (ix2 e k) (fun b => by
    match b with
    | ⟨0, _⟩ => rfl
    | ⟨1, _⟩ => rfl)

/-- Window 3 holds its whole array at every point. -/
theorem iblk3_apply (c : Dev nD) (t : Fin cfg0.N) (k e : Fin 1024) :
    (iblk m c 3 t : FVec Ideal S1024x1024 .bf16) (ix2 k e) = (m ((c : Thread nD τ).loc main_arg3) : S1024x1024.Idx → EReal) (ix2 e k) := by
  have hi : win0_3.index t 0 = 0 ∧ win0_3.index t 1 = 0 :=
    (by decide +kernel : ∀ t : Fin grid0.N, win0_3.index t 0 = 0 ∧ win0_3.index t 1 = 0) t
  unfold iblk
  rw [View.read_apply]
  refine Eq.trans (congrArg (V m c main_v3 : S1024x1024.Idx → EReal) (funext fun a => Fin.ext ?_)) (V_main_v3 m c k e)
  match a with
  | ⟨0, _⟩ => show win0_3.index t 0 * 1024 + 1 * k.val = k.val; rw [hi.1]; omega
  | ⟨1, _⟩ => show win0_3.index t 1 * 1024 + 1 * e.val = e.val; rw [hi.2]; omega

/-- The array window 5 stages is argument `main_arg5` transposed (its rounding to bf16 is the identity here). -/
theorem V_main_v5 (c : Dev nD) (k e : Fin 1024) :
    (V m c main_v5 : S1024x1024.Idx → EReal) (ix2 k e) = (m ((c : Thread nD τ).loc main_arg5) : S1024x1024.Idx → EReal) (ix2 e k) := by
  have e0 : (V m c main_v5 : S1024x1024.Idx → EReal)
      = truncf (F := Ideal) .bf16 (transpose S1024x1024 [1, 0] (m ((c : Thread nD τ).loc main_arg5) : S1024x1024.Idx → EReal) transposes_S1024x1024_S1024x1024_1_0) bitsLt_bf16_f32 := by
    dsimp only [V, hostOps0]; after_results <;> rfl
  rw [e0]
  exact transpose_apply [1, 0] _ transposes_S1024x1024_S1024x1024_1_0 (ix2 k e) (ix2 e k) (fun b => by
    match b with
    | ⟨0, _⟩ => rfl
    | ⟨1, _⟩ => rfl)

/-- Window 5 holds its whole array at every point. -/
theorem iblk5_apply (c : Dev nD) (t : Fin cfg0.N) (k e : Fin 1024) :
    (iblk m c 5 t : FVec Ideal S1024x1024 .bf16) (ix2 k e) = (m ((c : Thread nD τ).loc main_arg5) : S1024x1024.Idx → EReal) (ix2 e k) := by
  have hi : win0_5.index t 0 = 0 ∧ win0_5.index t 1 = 0 :=
    (by decide +kernel : ∀ t : Fin grid0.N, win0_5.index t 0 = 0 ∧ win0_5.index t 1 = 0) t
  unfold iblk
  rw [View.read_apply]
  refine Eq.trans (congrArg (V m c main_v5 : S1024x1024.Idx → EReal) (funext fun a => Fin.ext ?_)) (V_main_v5 m c k e)
  match a with
  | ⟨0, _⟩ => show win0_5.index t 0 * 1024 + 1 * k.val = k.val; rw [hi.1]; omega
  | ⟨1, _⟩ => show win0_5.index t 1 * 1024 + 1 * e.val = e.val; rw [hi.2]; omega

/-- The array window 7 stages is argument `main_arg7` transposed (its rounding to bf16 is the identity here). -/
theorem V_main_v7 (c : Dev nD) (k e : Fin 1024) :
    (V m c main_v7 : S1024x1024.Idx → EReal) (ix2 k e) = (m ((c : Thread nD τ).loc main_arg7) : S1024x1024.Idx → EReal) (ix2 e k) := by
  have e0 : (V m c main_v7 : S1024x1024.Idx → EReal)
      = truncf (F := Ideal) .bf16 (transpose S1024x1024 [1, 0] (m ((c : Thread nD τ).loc main_arg7) : S1024x1024.Idx → EReal) transposes_S1024x1024_S1024x1024_1_0) bitsLt_bf16_f32 := by
    dsimp only [V, hostOps0]; after_results <;> rfl
  rw [e0]
  exact transpose_apply [1, 0] _ transposes_S1024x1024_S1024x1024_1_0 (ix2 k e) (ix2 e k) (fun b => by
    match b with
    | ⟨0, _⟩ => rfl
    | ⟨1, _⟩ => rfl)

/-- Window 7 holds its whole array at every point. -/
theorem iblk7_apply (c : Dev nD) (t : Fin cfg0.N) (k e : Fin 1024) :
    (iblk m c 7 t : FVec Ideal S1024x1024 .bf16) (ix2 k e) = (m ((c : Thread nD τ).loc main_arg7) : S1024x1024.Idx → EReal) (ix2 e k) := by
  have hi : win0_7.index t 0 = 0 ∧ win0_7.index t 1 = 0 :=
    (by decide +kernel : ∀ t : Fin grid0.N, win0_7.index t 0 = 0 ∧ win0_7.index t 1 = 0) t
  unfold iblk
  rw [View.read_apply]
  refine Eq.trans (congrArg (V m c main_v7 : S1024x1024.Idx → EReal) (funext fun a => Fin.ext ?_)) (V_main_v7 m c k e)
  match a with
  | ⟨0, _⟩ => show win0_7.index t 0 * 1024 + 1 * k.val = k.val; rw [hi.1]; omega
  | ⟨1, _⟩ => show win0_7.index t 1 * 1024 + 1 * e.val = e.val; rw [hi.2]; omega

/-- The array window 2 stages is argument `main_arg2` as one row. -/
theorem V_main_v8 (c : Dev nD) (e : Fin 1024) :
    (V m c main_v8 : S1x1024.Idx → EReal) (ix2 0 e) = (m ((c : Thread nD τ).loc main_arg2) : S1024.Idx → EReal) (ix1 e) := by
  have e0 : (V m c main_v8 : S1x1024.Idx → EReal)
      = shapeCast S1x1024 (m ((c : Thread nD τ).loc main_arg2) : S1024.Idx → EReal) shapeCasts_S1024_S1x1024 := by
    dsimp only [V, hostOps0]; after_results <;> rfl
  rw [e0]
  exact shapeCast_apply _ shapeCasts_S1024_S1x1024 (ix2 0 e) (ix1 e) (by
    rw [Shape.rowMajor_val_one, Shape.rowMajor_val_two]
    show e.val = 0 * 1024 + e.val
    omega)

/-- Window 2 holds its whole row at every point. -/
theorem iblk2_apply (c : Dev nD) (t : Fin cfg0.N) (e : Fin 1024) :
    (iblk m c 2 t : FVec Ideal S1x1024 .f32) (ix2 0 e) = (m ((c : Thread nD τ).loc main_arg2) : S1024.Idx → EReal) (ix1 e) := by
  have hi : win0_2.index t 0 = 0 ∧ win0_2.index t 1 = 0 :=
    (by decide +kernel : ∀ t : Fin grid0.N, win0_2.index t 0 = 0 ∧ win0_2.index t 1 = 0) t
  unfold iblk
  rw [View.read_apply]
  refine Eq.trans (congrArg (V m c main_v8 : S1x1024.Idx → EReal) (funext fun a => Fin.ext ?_)) (V_main_v8 m c e)
  match a with
  | ⟨0, _⟩ => show win0_2.index t 0 * 1 + 1 * 0 = 0; rw [hi.1]
  | ⟨1, _⟩ => show win0_2.index t 1 * 1024 + 1 * e.val = e.val; rw [hi.2]; omega

/-- The array window 4 stages is argument `main_arg4` as one row. -/
theorem V_main_v9 (c : Dev nD) (e : Fin 1024) :
    (V m c main_v9 : S1x1024.Idx → EReal) (ix2 0 e) = (m ((c : Thread nD τ).loc main_arg4) : S1024.Idx → EReal) (ix1 e) := by
  have e0 : (V m c main_v9 : S1x1024.Idx → EReal)
      = shapeCast S1x1024 (m ((c : Thread nD τ).loc main_arg4) : S1024.Idx → EReal) shapeCasts_S1024_S1x1024 := by
    dsimp only [V, hostOps0]; after_results <;> rfl
  rw [e0]
  exact shapeCast_apply _ shapeCasts_S1024_S1x1024 (ix2 0 e) (ix1 e) (by
    rw [Shape.rowMajor_val_one, Shape.rowMajor_val_two]
    show e.val = 0 * 1024 + e.val
    omega)

/-- Window 4 holds its whole row at every point. -/
theorem iblk4_apply (c : Dev nD) (t : Fin cfg0.N) (e : Fin 1024) :
    (iblk m c 4 t : FVec Ideal S1x1024 .f32) (ix2 0 e) = (m ((c : Thread nD τ).loc main_arg4) : S1024.Idx → EReal) (ix1 e) := by
  have hi : win0_4.index t 0 = 0 ∧ win0_4.index t 1 = 0 :=
    (by decide +kernel : ∀ t : Fin grid0.N, win0_4.index t 0 = 0 ∧ win0_4.index t 1 = 0) t
  unfold iblk
  rw [View.read_apply]
  refine Eq.trans (congrArg (V m c main_v9 : S1x1024.Idx → EReal) (funext fun a => Fin.ext ?_)) (V_main_v9 m c e)
  match a with
  | ⟨0, _⟩ => show win0_4.index t 0 * 1 + 1 * 0 = 0; rw [hi.1]
  | ⟨1, _⟩ => show win0_4.index t 1 * 1024 + 1 * e.val = e.val; rw [hi.2]; omega

/-- The array window 6 stages is argument `main_arg6` as one row. -/
theorem V_main_v10 (c : Dev nD) (e : Fin 1024) :
    (V m c main_v10 : S1x1024.Idx → EReal) (ix2 0 e) = (m ((c : Thread nD τ).loc main_arg6) : S1024.Idx → EReal) (ix1 e) := by
  have e0 : (V m c main_v10 : S1x1024.Idx → EReal)
      = shapeCast S1x1024 (m ((c : Thread nD τ).loc main_arg6) : S1024.Idx → EReal) shapeCasts_S1024_S1x1024 := by
    dsimp only [V, hostOps0]; after_results <;> rfl
  rw [e0]
  exact shapeCast_apply _ shapeCasts_S1024_S1x1024 (ix2 0 e) (ix1 e) (by
    rw [Shape.rowMajor_val_one, Shape.rowMajor_val_two]
    show e.val = 0 * 1024 + e.val
    omega)

/-- Window 6 holds its whole row at every point. -/
theorem iblk6_apply (c : Dev nD) (t : Fin cfg0.N) (e : Fin 1024) :
    (iblk m c 6 t : FVec Ideal S1x1024 .f32) (ix2 0 e) = (m ((c : Thread nD τ).loc main_arg6) : S1024.Idx → EReal) (ix1 e) := by
  have hi : win0_6.index t 0 = 0 ∧ win0_6.index t 1 = 0 :=
    (by decide +kernel : ∀ t : Fin grid0.N, win0_6.index t 0 = 0 ∧ win0_6.index t 1 = 0) t
  unfold iblk
  rw [View.read_apply]
  refine Eq.trans (congrArg (V m c main_v10 : S1x1024.Idx → EReal) (funext fun a => Fin.ext ?_)) (V_main_v10 m c e)
  match a with
  | ⟨0, _⟩ => show win0_6.index t 0 * 1 + 1 * 0 = 0; rw [hi.1]
  | ⟨1, _⟩ => show win0_6.index t 1 * 1024 + 1 * e.val = e.val; rw [hi.2]; omega

/-- The array window 8 stages is argument `main_arg8` as one row. -/
theorem V_main_v11 (c : Dev nD) (e : Fin 1024) :
    (V m c main_v11 : S1x1024.Idx → EReal) (ix2 0 e) = (m ((c : Thread nD τ).loc main_arg8) : S1024.Idx → EReal) (ix1 e) := by
  have e0 : (V m c main_v11 : S1x1024.Idx → EReal)
      = shapeCast S1x1024 (m ((c : Thread nD τ).loc main_arg8) : S1024.Idx → EReal) shapeCasts_S1024_S1x1024 := by
    dsimp only [V, hostOps0]; after_results <;> rfl
  rw [e0]
  exact shapeCast_apply _ shapeCasts_S1024_S1x1024 (ix2 0 e) (ix1 e) (by
    rw [Shape.rowMajor_val_one, Shape.rowMajor_val_two]
    show e.val = 0 * 1024 + e.val
    omega)

/-- Window 8 holds its whole row at every point. -/
theorem iblk8_apply (c : Dev nD) (t : Fin cfg0.N) (e : Fin 1024) :
    (iblk m c 8 t : FVec Ideal S1x1024 .f32) (ix2 0 e) = (m ((c : Thread nD τ).loc main_arg8) : S1024.Idx → EReal) (ix1 e) := by
  have hi : win0_8.index t 0 = 0 ∧ win0_8.index t 1 = 0 :=
    (by decide +kernel : ∀ t : Fin grid0.N, win0_8.index t 0 = 0 ∧ win0_8.index t 1 = 0) t
  unfold iblk
  rw [View.read_apply]
  refine Eq.trans (congrArg (V m c main_v11 : S1x1024.Idx → EReal) (funext fun a => Fin.ext ?_)) (V_main_v11 m c e)
  match a with
  | ⟨0, _⟩ => show win0_8.index t 0 * 1 + 1 * 0 = 0; rw [hi.1]
  | ⟨1, _⟩ => show win0_8.index t 1 * 1024 + 1 * e.val = e.val; rw [hi.2]; omega

/-- Window 0's block at point `t` is rows `256 t …` of the token array. -/
theorem iblk0_apply (c : Dev nD) (t : Fin cfg0.N) (r : Fin 256) (k : Fin 1024) (hn : 256 * t.val + r.val < 32768) :
    (iblk m c 0 t : FVec Ideal S256x1024 .f32) (ix2 r k)
      = (m ((c : Thread nD τ).loc main_arg0) : S32768x1024.Idx → EReal) (ix2 (⟨256 * t.val + r.val, hn⟩ : Fin 32768) k) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show V m c main_arg0 _ = _
  rw [V_main_arg0]
  refine congrArg (m ((c : Thread nD τ).loc main_arg0) : S32768x1024.Idx → EReal) (funext fun a => Fin.ext ?_)
  match a with
  | ⟨0, _⟩ => show win0_0.index t 0 * 256 + 1 * r.val = 256 * t.val + r.val; rw [hi.1]; omega
  | ⟨1, _⟩ => show win0_0.index t 1 * 1024 + 1 * k.val = k.val; rw [hi.2]; omega

/-! ## The result array -/

/-- The result array as one function of the argument arrays as launched. -/
abbrev result (c : Dev nD) : S32768x1024.Idx → EReal :=
  wholeOut (m ((c : Thread nD τ).loc main_arg0) : S32768x1024.Idx → EReal)
      (m ((c : Thread nD τ).loc main_arg1) : S1024x1024.Idx → EReal)
      (m ((c : Thread nD τ).loc main_arg2) : S1024.Idx → EReal)
      (m ((c : Thread nD τ).loc main_arg3) : S1024x1024.Idx → EReal)
      (m ((c : Thread nD τ).loc main_arg4) : S1024.Idx → EReal)
      (m ((c : Thread nD τ).loc main_arg5) : S1024x1024.Idx → EReal)
      (m ((c : Thread nD τ).loc main_arg6) : S1024.Idx → EReal)
      (m ((c : Thread nD τ).loc main_arg7) : S1024x1024.Idx → EReal)
      (m ((c : Thread nD τ).loc main_arg8) : S1024.Idx → EReal)

/-- The stored block is a block of `wholeOut`: if the token block is rows `256 tn …` of `X`, each weight block the
    transpose of its matrix and each bias block its vector as one row, then what is stored at block index `y` is
    `wholeOut` at the array index `i` that sits `256 tn` rows further down. -/
theorem stored_block (x0 : FVec Ideal S256x1024 .f32) (x1 : FVec Ideal S1024x1024 .bf16) (x2 : FVec Ideal S1x1024 .f32) (x3 : FVec Ideal S1024x1024 .bf16) (x4 : FVec Ideal S1x1024 .f32) (x5 : FVec Ideal S1024x1024 .bf16) (x6 : FVec Ideal S1x1024 .f32) (x7 : FVec Ideal S1024x1024 .bf16) (x8 : FVec Ideal S1x1024 .f32)
    (X : S32768x1024.Idx → EReal) (W1 : S1024x1024.Idx → EReal) (B1 : S1024.Idx → EReal) (W2 : S1024x1024.Idx → EReal) (B2 : S1024.Idx → EReal)
    (W3 : S1024x1024.Idx → EReal) (B3 : S1024.Idx → EReal) (W4 : S1024x1024.Idx → EReal) (B4 : S1024.Idx → EReal) (tn : Nat)
    (h0 : ∀ (r : Fin 256) (k : Fin 1024) (hn : 256 * tn + r.val < 32768), x0 (ix2 r k) = X (ix2 (⟨256 * tn + r.val, hn⟩ : Fin 32768) k))
    (h1 : ∀ k e : Fin 1024, x1 (ix2 k e) = W1 (ix2 e k))
    (h2 : ∀ e : Fin 1024, x2 (ix2 0 e) = B1 (ix1 e))
    (h3 : ∀ k e : Fin 1024, x3 (ix2 k e) = W2 (ix2 e k))
    (h4 : ∀ e : Fin 1024, x4 (ix2 0 e) = B2 (ix1 e))
    (h5 : ∀ k e : Fin 1024, x5 (ix2 k e) = W3 (ix2 e k))
    (h6 : ∀ e : Fin 1024, x6 (ix2 0 e) = B3 (ix1 e))
    (h7 : ∀ k e : Fin 1024, x7 (ix2 k e) = W4 (ix2 e k))
    (h8 : ∀ e : Fin 1024, x8 (ix2 0 e) = B4 (ix1 e))
    (y : S256x1024.Idx) (i : S32768x1024.Idx) (hi0 : (i 0).val = 256 * tn + (y 0).val) (hi1 : (i 1).val = (y 1).val) :
    stored x0 x1 x2 x3 x4 x5 x6 x7 x8 y = wholeOut X W1 B1 W2 B2 W3 B3 W4 B4 i := by
  obtain ⟨r, e, rfl⟩ : ∃ (r : Fin 256) (e : Fin 1024), y = ix2 r e := ⟨y 0, y 1, eq_ix2 y⟩
  have hn : 256 * tn + r.val < 32768 := by
    have hlt : (i 0).val < 32768 := (i 0).isLt
    have heq : (i 0).val = 256 * tn + r.val := hi0
    omega
  obtain rfl : i = ix2 (⟨256 * tn + r.val, hn⟩ : Fin 32768) e := funext fun a => Fin.ext (by
    match a with
    | ⟨0, _⟩ => exact hi0
    | ⟨1, _⟩ => exact hi1)
  refine (stored_apply x0 x1 x2 x3 x4 x5 x6 x7 x8 r e).trans ?_
  have e0 : (fun k => x0 (ix2 r k)) = fun k => X (ix2 (⟨256 * tn + r.val, hn⟩ : Fin 32768) k) := funext fun k => h0 r k hn
  have e1 : (fun e k => x1 (ix2 k e)) = fun e k => W1 (ix2 e k) := funext fun e => funext fun k => h1 k e
  have e2 : (fun e => x2 (ix2 0 e)) = fun e => B1 (ix1 e) := funext fun e => h2 e
  have e3 : (fun e k => x3 (ix2 k e)) = fun e k => W2 (ix2 e k) := funext fun e => funext fun k => h3 k e
  have e4 : (fun e => x4 (ix2 0 e)) = fun e => B2 (ix1 e) := funext fun e => h4 e
  have e5 : (fun e k => x5 (ix2 k e)) = fun e k => W3 (ix2 e k) := funext fun e => funext fun k => h5 k e
  have e6 : (fun e => x6 (ix2 0 e)) = fun e => B3 (ix1 e) := funext fun e => h6 e
  have e7 : (fun e k => x7 (ix2 k e)) = fun e k => W4 (ix2 e k) := funext fun e => funext fun k => h7 k e
  have e8 : (fun e => x8 (ix2 0 e)) = fun e => B4 (ix1 e) := funext fun e => h8 e
  rw [e0, e1, e2, e3, e4, e5, e6, e7, e8]
  rfl

/-- WHAT POINT `t` WRITES BACK is block `t` of `result`. -/
theorem flushed_eq (c : Dev nD) (t : Fin cfg0.N) :
    (dats m 0 c).flushed 9 t = ((cfg0.win 9).blk t).view.read (Elt Ideal) (result m c) := by
  have hi : win0_9.index t 0 = t.val ∧ win0_9.index t 1 = 0 :=
    (by decide +kernel : ∀ t : Fin grid0.N, win0_9.index t 0 = t.val ∧ win0_9.index t 1 = 0) t
  show (cfg0.win 9).cut (grid0.coords t) ((dats m 0 c).after 9 t) = _
  rw [after0_9]
  unfold out0_9
  rw [View.canon_unit_zero hz]
  simp only [View.ld_unit_zero (S := S256x1024) hz, View.ld_unit_zero (S := S1024x1024) hz, View.ld_unit_zero (S := S1x1024) hz]
  funext y
  exact stored_block (iblk m c 0 t) (iblk m c 1 t) (iblk m c 2 t) (iblk m c 3 t) (iblk m c 4 t) (iblk m c 5 t) (iblk m c 6 t) (iblk m c 7 t) (iblk m c 8 t)
    (m ((c : Thread nD τ).loc main_arg0) : S32768x1024.Idx → EReal) (m ((c : Thread nD τ).loc main_arg1) : S1024x1024.Idx → EReal) (m ((c : Thread nD τ).loc main_arg2) : S1024.Idx → EReal) (m ((c : Thread nD τ).loc main_arg3) : S1024x1024.Idx → EReal) (m ((c : Thread nD τ).loc main_arg4) : S1024.Idx → EReal) (m ((c : Thread nD τ).loc main_arg5) : S1024x1024.Idx → EReal) (m ((c : Thread nD τ).loc main_arg6) : S1024.Idx → EReal) (m ((c : Thread nD τ).loc main_arg7) : S1024x1024.Idx → EReal) (m ((c : Thread nD τ).loc main_arg8) : S1024.Idx → EReal) t.val
    (fun r k hn => iblk0_apply m c t r k hn)
    (fun k e => iblk1_apply m c t k e)
    (fun e => iblk2_apply m c t e)
    (fun k e => iblk3_apply m c t k e)
    (fun e => iblk4_apply m c t e)
    (fun k e => iblk5_apply m c t k e)
    (fun e => iblk6_apply m c t e)
    (fun k e => iblk7_apply m c t k e)
    (fun e => iblk8_apply m c t e)
    y (((cfg0.win 9).blk t).view.emb y)
    (by show win0_9.index t 0 * 256 + 1 * (y 0).val = 256 * t.val + (y 0).val; rw [hi.1]; omega)
    (by show win0_9.index t 1 * 1024 + 1 * (y 1).val = (y 1).val; rw [hi.2]; omega)

/-- An index of the result array is in point `t`'s block iff each coordinate is in the block's range. -/
theorem mem_blk (t : Fin cfg0.N) (i : S32768x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v12).slice (win0_9.rect t)).set ↔ _
  rw [View.set_slice_whole, Rect.mem_set_unit]
  exact Iff.rfl

/-- The blocks tile the array: token `n` is in the block of point `n / 256`. -/
theorem cover (i : S32768x1024.Idx) : ∃ t : Fin cfg0.N, (cfg0.win 9).flush t = true ∧ i ∈ ((cfg0.win 9).blk t).view.set := by
  have hN : cfg0.N = 128 := N_0
  have h0 : (i 0).val < 32768 := (i 0).isLt
  have h1 : (i 1).val < 1024 := (i 1).isLt
  have ht : (i 0).val / 256 < cfg0.N := by rw [hN]; omega
  have hi : win0_9.index ⟨(i 0).val / 256, ht⟩ 0 = (i 0).val / 256 ∧ win0_9.index ⟨(i 0).val / 256, ht⟩ 1 = 0 :=
    (by decide +kernel : ∀ t : Fin grid0.N, win0_9.index t 0 = t.val ∧ win0_9.index t 1 = 0) ⟨(i 0).val / 256, ht⟩
  refine ⟨⟨(i 0).val / 256, ht⟩, flush0_9 _, ?_⟩
  rw [mem_blk]
  intro a
  match a with
  | ⟨0, _⟩ =>
    show win0_9.index ⟨(i 0).val / 256, ht⟩ 0 * 256 ≤ (i 0).val ∧ (i 0).val < win0_9.index ⟨(i 0).val / 256, ht⟩ 0 * 256 + 256
    rw [hi.1]; omega
  | ⟨1, _⟩ =>
    show win0_9.index ⟨(i 0).val / 256, ht⟩ 1 * 1024 ≤ (i 1).val ∧ (i 1).val < win0_9.index ⟨(i 0).val / 256, ht⟩ 1 * 1024 + 1024
    rw [hi.2]; omega

/-- THE RESULT ARRAY after the run is `result`. -/
theorem final (c : Dev nD) : (dats m 0 c).arrAt 9 cfg0.N = result m c :=
  (dats m 0 c).arrAt_eq_of_cover 9 (result m c) (fun t _ => flushed_eq m c t) cover

/-- The kernel's run, read: the result array at `result` of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.CrossHead.Kernel

end
-- ==== Proof.RefRow.lean ====
/-
  The reference, one token row at a time, over the extended reals.

  Every stage of the reference is read at an index from its operands at an index; chained, they say that the result
  array at token `n`, channel `e` is `rowOut` of row `n` of the token array and of the weight matrices and biases as
  given: the projections are sums over the contracted channel against the TRANSPOSED weights (so `W e k` is the weight
  array at `(e, k)`), the scores and the value mix are sums over lanes and over heads within the token, the softmax's
  maximum is a fold of `max` from `-∞` and its sum starts from the zero word, and the two reshapes move nothing.
-/
import proofs.«133220_j58720792871836_2_alg».proof.Proof.Gen.ReferenceIdeal.Read
import proofs.«133220_j58720792871836_2_alg».proof.Proof.Spec
import Idealize.ShloMosaic.Lib.ValueIdx
import Idealize.ShloMosaic.PureOps.Ideal.Laws
import Idealize.ShloMosaic.PureOps.Reduce

noncomputable section

open scoped BigOperators

namespace Cert.CrossHead.Ref

open Idealize.ShloMosaic Idealize.ShloMosaic.ValueIdx Cert.ReferenceIdeal Cert.ReferenceIdeal.Read Cert.CrossHead

/-! ## The index maps of the stages, at an index given by its coordinates -/

theorem lidx_rows (n : Fin 32768) (e k : Fin 1024) : lidx_main_v1 (ix2 n e) k = ix2 n k := funext fun a => Fin.ext (by
    match a with
    | ⟨0, _⟩ => rfl
    | ⟨1, _⟩ => rfl)
theorem ridx_rows (n : Fin 32768) (e k : Fin 1024) : idx_main_v0 (ridx_main_v1 (ix2 n e) k) = ix2 e k := funext fun a => Fin.ext (by
    match a with
    | ⟨0, _⟩ => rfl
    | ⟨1, _⟩ => rfl)
theorem idx_bias (n : Fin 32768) (e : Fin 1024) : idx_main_v2 (idx_main_v3 (ix2 n e)) = ix1 e := funext fun a => Fin.ext (by
    match a with
    | ⟨0, _⟩ => rfl)
theorem idx_split (n : Fin 32768) (h : Fin 16) (d : Fin 64) : idx_main_v5 (ix3 n h d) = ix2 n (chan h d) := funext fun a => Fin.ext (by
    have := h.isLt; have := d.isLt
    match a with
    | ⟨0, _⟩ => show ((n.val * 16 + h.val) * 64 + d.val) / 1024 = n.val; omega
    | ⟨1, _⟩ => show ((n.val * 16 + h.val) * 64 + d.val) % 1024 = h.val * 64 + d.val; omega)
theorem idx_merge (n : Fin 32768) (e : Fin 1024) : idx_main_v33 (ix2 n e) = ix3 n (headOf e) (laneOf e) := funext fun a => Fin.ext (by
    have := e.isLt
    match a with
    | ⟨0, _⟩ => show (n.val * 1024 + e.val) / 1024 = n.val; omega
    | ⟨1, _⟩ => show (n.val * 1024 + e.val) / 64 % 16 = e.val / 64; omega
    | ⟨2, _⟩ => show (n.val * 1024 + e.val) % 64 = e.val % 64; omega)
theorem lidx_scores (n : Fin 32768) (h j : Fin 16) (d : Fin 64) : lidx_main_v18 (ix3 n h j) d = ix3 n h d := funext fun a => Fin.ext (by
    match a with
    | ⟨0, _⟩ => rfl
    | ⟨1, _⟩ => rfl
    | ⟨2, _⟩ => rfl)
theorem ridx_scores (n : Fin 32768) (h j : Fin 16) (d : Fin 64) : ridx_main_v18 (ix3 n h j) d = ix3 n j d := funext fun a => Fin.ext (by
    match a with
    | ⟨0, _⟩ => rfl
    | ⟨1, _⟩ => rfl
    | ⟨2, _⟩ => rfl)
theorem idx_keep (n : Fin 32768) (h j : Fin 16) : idx_main_v24 (idx_main_v25 (ix3 n h j)) = ix2 n h := funext fun a => Fin.ext (by
    match a with
    | ⟨0, _⟩ => rfl
    | ⟨1, _⟩ => rfl)
theorem idx_lane (n : Fin 32768) (h j : Fin 16) : idx_main_v28 (ix2 n h) j = ix3 n h j := funext fun a => Fin.ext (by
    match a with
    | ⟨0, _⟩ => rfl
    | ⟨1, _⟩ => rfl
    | ⟨2, _⟩ => rfl)
theorem lidx_mix (n : Fin 32768) (h : Fin 16) (d : Fin 64) (j : Fin 16) : lidx_main_v32 (ix3 n h d) j = ix3 n h j := funext fun a => Fin.ext (by
    match a with
    | ⟨0, _⟩ => rfl
    | ⟨1, _⟩ => rfl
    | ⟨2, _⟩ => rfl)
theorem ridx_mix (n : Fin 32768) (h : Fin 16) (d : Fin 64) (j : Fin 16) : ridx_main_v32 (ix3 n h d) j = ix3 n j d := funext fun a => Fin.ext (by
    match a with
    | ⟨0, _⟩ => rfl
    | ⟨1, _⟩ => rfl
    | ⟨2, _⟩ => rfl)

/-! ## The three projections -/

/-- A projection of the token array at token `n`, channel `e`. -/
theorem lin_apply (x0 : (⟨S32768x1024, .f32⟩ : BufTy).Contents (Elt Ideal)) (w : (⟨S1024x1024, .f32⟩ : BufTy).Contents (Elt Ideal)) (b : (⟨S1024, .f32⟩ : BufTy).Contents (Elt Ideal)) (n : Fin 32768) (e : Fin 1024) :
    val_main_v4 (F := Ideal) x0 w b (ix2 n e) = proj (fun k => x0 (ix2 n k)) (fun e k => w (ix2 e k)) (fun e => b (ix1 e)) e := by
  rw [val_main_v4_apply, val_main_v1_apply, val_main_v3_apply, val_main_v2_apply, idx_bias]
  simp only [val_main_v0_apply, lidx_rows, ridx_rows]
  rfl

/-- The key and value projections are the same operations on their own weights. -/
theorem v10_eq : @val_main_v10 = @val_main_v4 := rfl
theorem v16_eq : @val_main_v16 = @val_main_v4 := rfl

/-- The projections viewed as heads of lanes. -/
theorem heads_q (x0 : (⟨S32768x1024, .f32⟩ : BufTy).Contents (Elt Ideal)) (w : (⟨S1024x1024, .f32⟩ : BufTy).Contents (Elt Ideal)) (b : (⟨S1024, .f32⟩ : BufTy).Contents (Elt Ideal)) (n : Fin 32768) (h : Fin 16) (d : Fin 64) :
    val_main_v5 (F := Ideal) x0 w b (ix3 n h d) = proj (fun k => x0 (ix2 n k)) (fun e k => w (ix2 e k)) (fun e => b (ix1 e)) (chan h d) := by
  rw [val_main_v5_apply, idx_split, lin_apply]
theorem v11_eq : @val_main_v11 = @val_main_v5 := rfl
theorem v17_eq : @val_main_v17 = @val_main_v5 := rfl

section Row

variable (x0 : (⟨S32768x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal))

/-- Token `n`'s query, key and value rows. -/
abbrev qRow (n : Fin 32768) : Fin 1024 → EReal := proj (fun k => x0 (ix2 n k)) (fun e k => x1 (ix2 e k)) (fun e => x2 (ix1 e))
abbrev kRow (n : Fin 32768) : Fin 1024 → EReal := proj (fun k => x0 (ix2 n k)) (fun e k => x3 (ix2 e k)) (fun e => x4 (ix1 e))
abbrev vRow (n : Fin 32768) : Fin 1024 → EReal := proj (fun k => x0 (ix2 n k)) (fun e k => x5 (ix2 e k)) (fun e => x6 (ix1 e))

/-- The scaled scores of token `n`. -/
theorem scores_apply (n : Fin 32768) (h j : Fin 16) :
    val_main_v20 (F := Ideal) x0 x1 x2 x3 x4 (ix3 n h j) = score (qRow x0 x1 x2 n) (kRow x0 x3 x4 n) h j := by
  rw [val_main_v20_apply, val_main_v18_apply, val_main_v19_apply, val_main_cst_apply]
  simp only [lidx_scores, ridx_scores, v11_eq, heads_q]
  rfl

/-- The row maximum of the scores of token `n`, head `h`. -/
theorem rowmax_apply (n : Fin 32768) (h : Fin 16) :
    val_main_v23 (F := Ideal) x0 x1 x2 x3 x4 (ix2 n h) = rowMax (score (qRow x0 x1 x2 n) (kRow x0 x3 x4 n) h) := by
  rw [val_main_v23_apply]
  unfold val_main_v21
  rw [Host.reduce_eq_fold_single FloatOps.maximumf _ _ _ (by decide : S32768x16x16.Reduces [2] S32768x16) _]
  show max negInf ((Finset.univ : Finset (Fin 16)).fold max negInf
    (val_main_v20 (F := Ideal) x0 x1 x2 x3 x4 ∘ (by decide : S32768x16x16.Reduces [2] S32768x16).lift (ix2 n h))) = _
  refine congrArg (fun f => max negInf (Finset.fold max negInf f (Finset.univ : Finset (Fin 16)))) ?_
  funext j
  refine (congrArg (val_main_v20 (F := Ideal) x0 x1 x2 x3 x4) (funext fun a => Fin.ext ?_)).trans (scores_apply x0 x1 x2 x3 x4 n h j)
  match a with
    | ⟨0, _⟩ => rfl
    | ⟨1, _⟩ => rfl
    | ⟨2, _⟩ => rfl

/-- The exponentials. -/
theorem expo_apply (n : Fin 32768) (h j : Fin 16) :
    val_main_v27 (F := Ideal) x0 x1 x2 x3 x4 (ix3 n h j) = expo (score (qRow x0 x1 x2 n) (kRow x0 x3 x4 n)) h j := by
  rw [val_main_v27_apply, val_main_v26_apply, val_main_v25_apply, val_main_v24_apply, idx_keep, rowmax_apply, scores_apply]
  rfl

/-- The softmax weights of token `n`. -/
theorem weights_apply (n : Fin 32768) (h j : Fin 16) :
    val_main_v31 (F := Ideal) x0 x1 x2 x3 x4 (ix3 n h j) = weights (score (qRow x0 x1 x2 n) (kRow x0 x3 x4 n)) h j := by
  rw [val_main_v31_apply, val_main_v30_apply, val_main_v29_apply, val_main_v28_apply, val_main_cst_2_apply, expo_apply]
  have e0 : idx_main_v29 (idx_main_v30 (ix3 n h j)) = ix2 n h := funext fun a => Fin.ext (by
    match a with
    | ⟨0, _⟩ => rfl
    | ⟨1, _⟩ => rfl)
  rw [e0]
  simp only [idx_lane, expo_apply]
  show Ideal.div _ (Ideal.ofBits .f32 0x00000000#32 + _) = _
  rw [Ideal.ofBits_zero_f32, zero_add]
  rfl

/-- The mixed heads of token `n`, channel by channel. -/
theorem mix_apply (n : Fin 32768) (e : Fin 1024) :
    val_main_v33 (F := Ideal) x0 x1 x2 x3 x4 x5 x6 (ix2 n e)
      = mix (weights (score (qRow x0 x1 x2 n) (kRow x0 x3 x4 n))) (vRow x0 x5 x6 n) e := by
  rw [val_main_v33_apply, idx_merge, val_main_v32_apply]
  simp only [lidx_mix, ridx_mix, weights_apply, v17_eq, heads_q]
  rfl

/-- THE REFERENCE'S RESULT at token `n`, channel `e`: the result row of row `n`. -/
theorem result_apply (n : Fin 32768) (e : Fin 1024) :
    val_main_v38 (F := Ideal) x0 x1 x2 x3 x4 x5 x6 x7 x8 (ix2 n e)
      = rowOut (fun k => x0 (ix2 n k)) (fun e k => x1 (ix2 e k)) (fun e => x2 (ix1 e)) (fun e k => x3 (ix2 e k)) (fun e => x4 (ix1 e))
          (fun e k => x5 (ix2 e k)) (fun e => x6 (ix1 e)) (fun e k => x7 (ix2 e k)) (fun e => x8 (ix1 e)) e := by
  rw [val_main_v38_apply, val_main_v35_apply, val_main_v37_apply, val_main_v36_apply]
  have eb : idx_main_v36 (idx_main_v37 (ix2 n e)) = ix1 e := funext fun a => Fin.ext (by
    match a with
    | ⟨0, _⟩ => rfl)
  have el : ∀ k : Fin 1024, lidx_main_v35 (ix2 n e) k = ix2 n k := fun k => funext fun a => Fin.ext (by
    match a with
    | ⟨0, _⟩ => rfl
    | ⟨1, _⟩ => rfl)
  have er : ∀ k : Fin 1024, idx_main_v34 (ridx_main_v35 (ix2 n e) k) = ix2 e k := fun k => funext fun a => Fin.ext (by
    match a with
    | ⟨0, _⟩ => rfl
    | ⟨1, _⟩ => rfl)
  rw [eb]
  simp only [val_main_v34_apply, el, er, mix_apply]
  rfl

/-- THE REFERENCE'S RESULT ARRAY is `wholeOut` of its argument arrays. -/
theorem result_eq : val_main_v38 (F := Ideal) x0 x1 x2 x3 x4 x5 x6 x7 x8 = wholeOut x0 x1 x2 x3 x4 x5 x6 x7 x8 := by
  funext i
  obtain ⟨n, e, rfl⟩ : ∃ (n : Fin 32768) (e : Fin 1024), i = ix2 n e := ⟨i 0, i 1, eq_ix2 i⟩
  exact result_apply x0 x1 x2 x3 x4 x5 x6 x7 x8 n e

end Row

end Cert.CrossHead.Ref

end
-- ==== Proof.lean ====
/-
  The kernel and its reference compute the same result array over the extended reals.

  The kernel: per block of 256 tokens, three projections of the token rows (matrix products with the transposed weights,
  plus bias), the sixteen-by-sixteen head-against-head scores as sixteen lane sums laid side by side, a softmax over the
  scored heads, the value mix as a running total over the heads, and the output projection. The reference: the same
  computation written with whole-array matrix products and two batched products over the tokens. Every result row
  depends on its own token row only, and on that row both are `rowOut` (Proof/Spec.lean): a sum taken in another order or
  grouping, a product accumulated from zero one head at a time, a change of float format and a different tiling are no
  difference on the extended reals, and the scale `1/8`, the zero and the `-∞` words are the same words on both sides. No
  step uses that the inputs are finite.

  The three frames: the kernel's, at both instances, is the generated frame; the reference's is its generated run with the
  result forgotten. The idealized kernel is the kernel's own text read over the extended reals (nothing was rewritten).
-/
import proofs.«133220_j58720792871836_2_alg».proof.Defs
import proofs.«133220_j58720792871836_2_alg».proof.Proof.Gen.Kernel
import proofs.«133220_j58720792871836_2_alg».proof.Proof.Gen.Kernel.Skeleton
import proofs.«133220_j58720792871836_2_alg».proof.Proof.Gen.Kernel.Launch
import proofs.«133220_j58720792871836_2_alg».proof.Proof.Gen.Kernel.Points
import proofs.«133220_j58720792871836_2_alg».proof.Proof.Gen.Kernel.Frame
import proofs.«133220_j58720792871836_2_alg».proof.Proof.Gen.KernelIdeal
import proofs.«133220_j58720792871836_2_alg».proof.Proof.Gen.KernelIdeal.Skeleton
import proofs.«133220_j58720792871836_2_alg».proof.Proof.Gen.KernelIdeal.Launch
import proofs.«133220_j58720792871836_2_alg».proof.Proof.Gen.KernelIdeal.Points
import proofs.«133220_j58720792871836_2_alg».proof.Proof.Gen.KernelIdeal.Frame
import proofs.«133220_j58720792871836_2_alg».proof.Proof.Gen.ReferenceIdeal
import proofs.«133220_j58720792871836_2_alg».proof.Proof.Gen.Pre_finite_inputs
import proofs.«133220_j58720792871836_2_alg».proof.Proof.Gen.KernelIdeal.Value
import proofs.«133220_j58720792871836_2_alg».proof.Proof.Gen.ReferenceIdeal.Run
import proofs.«133220_j58720792871836_2_alg».proof.Proof.Gen.ReferenceIdeal.Read
import proofs.«133220_j58720792871836_2_alg».proof.Proof.KernelValue
import proofs.«133220_j58720792871836_2_alg».proof.Proof.RefRow
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end with the result array at `wholeOut` of the argument arrays: the kernel
    block by block, the reference stage by stage. -/
theorem algebraic : Cert.algebraic_KernelIdeal_ReferenceIdeal := by
  intro m ρ m' ρ' _ hagree
  refine ⟨fun c => Cert.CrossHead.Kernel.result m c, Cert.CrossHead.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.CrossHead.Ref.result_eq]
  obtain ⟨a0, a1, a2, a3, a4, a5, a6, a7, a8⟩ := hagree c
  rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
